-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x8192 .f32) (main_arg1 : FVec F S8192x128 .f32) (main_arg2 : FVec F S128x128 .f32) (main_arg3 : FVec F S128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩
abbrev S1024x1024 : Shape := ⟨2, ![1024, 1024]⟩
abbrev S1024x128 : Shape := ⟨2, ![1024, 128]⟩
abbrev S1024x1 : Shape := ⟨2, ![1024, 1]⟩
abbrev S1024 : Shape := ⟨1, ![1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S8192x128, .f32⟩
  | .hbm, ⟨6, _⟩ => ⟨S1x128, .f32⟩
  | .hbm, ⟨7, _⟩ => ⟨S8192x128, .f32⟩
  | .hbm, ⟨8, _⟩ => ⟨S8192x128, .f32⟩
  | .hbm, ⟨9, _⟩ => ⟨S8192x128, .bf16⟩
  | .hbm, ⟨10, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S8192x128, .bf16⟩
  | .local _ .vmem, ⟨3, _⟩ => ⟨S1024x128, .f32⟩
  | .local _ .vmem, ⟨4, _⟩ => ⟨S1024x128, .f32⟩
  | .local _ .vmem, ⟨5, _⟩ => ⟨S1024x1, .f32⟩
  | .local _ .vmem, ⟨6, _⟩ => ⟨S1024x1, .f32⟩
  | .local _ .vmem, ⟨7, _⟩ => ⟨S1024x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v27 : BitVec 32 := Scalar.muli arg1 c1024_i32
  v27
def k0_off1 (i : grid0.Coords) : Fin 2 → Nat :=
  let arg1 : BitVec 32 := BitVec.ofNat 32 (i 1).val
  let c1024_i32 : BitVec 32 := 1024#32
  let v27 : BitVec 32 := Scalar.muli arg1 c1024_i32
  let v28 : BitVec 32 := v27
  let v29 : Index := Scalar.indexCast v28
  let c0_13 : Index := 0#32
  ![v29.toNat, 0]
def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_21 : BitVec 32 := 0#32
  let v46 : BitVec 1 := Scalar.cmpi .ne v45 c0_i32_21
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  dot_S8192x128_S128x128_S8192x128_1_0_0_1_n_n_wf : DotDims.WF S8192x128 S128x128 S8192x128 [1] [0] [0] [1] [] []
  dot_S1024x1024_S1024x128_S1024x128_1_0_0_1_n_n_wf : DotDims.WF S1024x1024 S1024x128 S1024x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1024x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x128 : Shape := ⟨2, ![8192, 128]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S8192x8192, .f32⟩
  | .hbm, ⟨6, _⟩ => ⟨S8192x8192, .i1⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S128x128, .f32⟩
  | .hbm, ⟨27, _⟩ => ⟨S8192x128, .f32⟩
  | .hbm, ⟨28, _⟩ => ⟨S1x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S_, .f32⟩
  | .hbm, ⟨33, _⟩ => ⟨S_, .f32⟩
  | .hbm, ⟨34, _⟩ => ⟨S8192x128, .f32⟩
  | .hbm, ⟨35, _⟩ => ⟨S8192x128, .i1⟩
  | .hbm, ⟨36, _⟩ => ⟨S_, .f32⟩
  | .hbm, ⟨37, _⟩ => ⟨S8192x128, .f32⟩
  | .hbm, ⟨38, _⟩ => ⟨S8192x128, .f32⟩
  | .hbm, ⟨39, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v23 : Ref sig .tc := ⟨.hbm, 39, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Spec.lean ====
/-
  What both programs compute, entry by entry, on the extended reals.

  For an adjacency matrix `A` (8192 × 8192), features `X` (8192 × 128), weights `W` (128 × 128) and a bias `b` (128):
  every entry of `A` at or below the threshold is pushed down by a large offset (the masked logit), each row of
  logits is turned into softmax weights, the weights average the rows of `X · Wᵀ + b`, and a leaky rectifier is
  applied. With `ℓ j` the logits of row `i` and `v j` column `d` of `X · Wᵀ + b`, entry `(i, d)` is

      leaky ((∑ j, exp (ℓ j) · v j) / (∑ j, exp (ℓ j))).

  The softmax's shift by the row maximum cancels between numerator and denominator, so it does not appear. The
  sums are written over `Finset.range` of functions on ℕ (zero past the row's end), so that a prefix of the columns
  is again such a sum.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Every entry of an array is a real number (neither infinity). -/
def Finite {s : Shape} (x : s.Idx → EReal) : Prop := ∀ i, x i ≠ ⊤ ∧ x i ≠ ⊥

/-- The mask's threshold, the mask's offset and the rectifier's slope: the extended reals their f32 words denote. -/
def thr : EReal := Ideal.ofBits .f32 0x3F4CCCCD#32
def big : EReal := Ideal.ofBits .f32 0x4E6E6B28#32
def slope : EReal := Ideal.ofBits .f32 0x3C23D70A#32

/-- The masked logit of an adjacency entry: entries at or below the threshold are lowered by the offset. -/
def logit (a : EReal) : EReal := if a ≤ thr then a - big else a

/-- The leaky rectifier. -/
def leaky (x : EReal) : EReal := if 0 ≤ x then x else slope * x

/-- Entry `(j, d)` of `X · Wᵀ + b`. -/
def xw (X : (⟨2, ![8192, 128]⟩ : Shape).Idx → EReal) (W : (⟨2, ![128, 128]⟩ : Shape).Idx → EReal)
    (b : (⟨1, ![128]⟩ : Shape).Idx → EReal) (j : Fin 8192) (d : Fin 128) : EReal :=
  (∑ c : Fin 128, X (ix2 j c) * W (ix2 d c)) + b (ix1 d)

/-- The real logits of row `i`, as a function on ℕ (zero past the row's end). -/
def lg (A : (⟨2, ![8192, 8192]⟩ : Shape).Idx → EReal) (i : Fin 8192) (j : ℕ) : ℝ :=
  if h : j < 8192 then (logit (A (ix2 i ⟨j, h⟩))).toReal else 0

/-- Column `d` of `X · Wᵀ + b` as real numbers, as a function on ℕ (zero past the column's end). -/
def vl (X : (⟨2, ![8192, 128]⟩ : Shape).Idx → EReal) (W : (⟨2, ![128, 128]⟩ : Shape).Idx → EReal)
    (b : (⟨1, ![128]⟩ : Shape).Idx → EReal) (d : Fin 128) (j : ℕ) : ℝ :=
  if h : j < 8192 then (xw X W b ⟨j, h⟩ d).toReal else 0

/-- The unnormalized weighted sum over the first `n` columns of row `i`, against column `d`. -/
def num (A : (⟨2, ![8192, 8192]⟩ : Shape).Idx → EReal) (X : (⟨2, ![8192, 128]⟩ : Shape).Idx → EReal)
    (W : (⟨2, ![128, 128]⟩ : Shape).Idx → EReal) (b : (⟨1, ![128]⟩ : Shape).Idx → EReal)
    (i : Fin 8192) (d : Fin 128) (n : ℕ) : ℝ :=
  ∑ j ∈ Finset.range n, Real.exp (lg A i j) * vl X W b d j

/-- The unnormalized weight total over the first `n` columns of row `i`. -/
def den (A : (⟨2, ![8192, 8192]⟩ : Shape).Idx → EReal) (i : Fin 8192) (n : ℕ) : ℝ :=
  ∑ j ∈ Finset.range n, Real.exp (lg A i j)

/-- Entry `(i, d)` of the result. -/
def Gent (A : (⟨2, ![8192, 8192]⟩ : Shape).Idx → EReal) (X : (⟨2, ![8192, 128]⟩ : Shape).Idx → EReal)
    (W : (⟨2, ![128, 128]⟩ : Shape).Idx → EReal) (b : (⟨1, ![128]⟩ : Shape).Idx → EReal)
    (i : Fin 8192) (d : Fin 128) : EReal :=
  leaky ((num A X W b i d 8192 / den A i 8192 : ℝ) : EReal)

/-- The result array. -/
def G (A : (⟨2, ![8192, 8192]⟩ : Shape).Idx → EReal) (X : (⟨2, ![8192, 128]⟩ : Shape).Idx → EReal)
    (W : (⟨2, ![128, 128]⟩ : Shape).Idx → EReal) (b : (⟨1, ![128]⟩ : Shape).Idx → EReal) :
    (⟨2, ![8192, 128]⟩ : Shape).Idx → EReal :=
  fun y => Gent A X W b (y 0) (y 1)

theorem G_apply (A : (⟨2, ![8192, 8192]⟩ : Shape).Idx → EReal) (X : (⟨2, ![8192, 128]⟩ : Shape).Idx → EReal)
    (W : (⟨2, ![128, 128]⟩ : Shape).Idx → EReal) (b : (⟨1, ![128]⟩ : Shape).Idx → EReal) (i : Fin 8192) (d : Fin 128) :
    G A X W b (ix2 i d) = Gent A X W b i d := rfl

/-- The weight total of a nonempty prefix is positive. -/
theorem den_pos (A : (⟨2, ![8192, 8192]⟩ : Shape).Idx → EReal) (i : Fin 8192) {n : ℕ} (hn : 0 < n) : 0 < den A i n :=
  Finset.sum_pos (fun _ _ => Real.exp_pos _) ⟨0, Finset.mem_range.mpr hn⟩

end Cert.Spec

end
-- ==== Proof.LibHostLayout.lean ====
/-
  The host's broadcasts of a vector along the rows or along the columns of a matrix, read at an entry.

  A length-a vector placed as an a × 1 column and that column repeated across b columns holds, at (p, c), the vector's
  entry p. A length-b vector placed as a 1 × b row and that row repeated down a rows holds, at (p, c), the vector's
  entry c. These are the forms a per-row quantity (a row maximum, a row sum) and a bias take when they are combined
  with a matrix entry by entry.
-/
import Idealize.ShloMosaic.Lib.Pipeline.Value
import Idealize.ShloMosaic.Lib.ValueIdx

namespace Cert.HostLayout

open Idealize.ShloMosaic Idealize.ShloMosaic.ValueIdx

variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A rank-0 array broadcast to any shape reads, everywhere, its one entry. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.HostLayout
-- ==== Proof.Finiteness.lean ====
/-
  The precondition read back: it states, of each of the four input arrays, that the absolute value of every entry is
  below +∞, all four joined by "and". So every entry of every input is a real number.
-/
import proofs.«175535_j12962211299361_2_alg».proof.Pre_finite_inputs
import proofs.«175535_j12962211299361_2_alg».proof.Proof.Gen.Pre_finite_inputs
import proofs.«175535_j12962211299361_2_alg».proof.Proof.Spec
import proofs.«175535_j12962211299361_2_alg».proof.Proof.LibHostLayout
import Idealize.ShloMosaic.Lib.ReduceAll
import Idealize.ShloMosaic.Lib.ValueIdx
import Idealize.ShloMosaic.PureOps.Ideal.Laws

noncomputable section

namespace Cert.Finiteness

open Idealize.ShloMosaic Idealize.ShloMosaic.ValueIdx Cert.Pre_finite_inputs

instance : Subsingleton S_.Idx := ⟨fun a b => funext fun d => d.elim0⟩

/-- The f32 word of +∞ denotes the top of the extended reals. -/
theorem posInf : Ideal.ofBits .f32 0x7F800000#32 = (⊤ : EReal) := by simp [Ideal.ofBits, Ideal.ieee]

/-- An extended real whose absolute value is below +∞ is a real number. -/
theorem elem_finite (x : EReal) (h : Ideal.cmp .olt (max x (-x)) (⊤ : EReal) = 1#1) : x ≠ ⊤ ∧ x ≠ ⊥ := by
  have hlt : max x (-x) < ⊤ := by
    by_contra hn
    simp [Ideal.cmp, hn] at h
  constructor
  · rintro rfl; simp at hlt
  · rintro rfl; simp at hlt

/-- One input's clause: if the "and" over all entries of `|x| < +∞` is true, every entry of `x` is a real. -/
theorem all_finite {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) : Cert.Spec.Finite x := by
  intro i
  have hi := Host.reduce_andi_all _ _ hr hu ix0 h i
  refine elem_finite (x i) ?_
  rw [← posInf]
  exact hi

variable [Facts]

/-- The precondition gives the finiteness of all four inputs. -/
theorem finite_of_pre (A : FVec Ideal S8192x8192 .f32) (X : FVec Ideal S8192x128 .f32) (W : FVec Ideal S128x128 .f32) (b : FVec Ideal S128 .f32)
    (h : fn (F := Ideal) A X W b = fun _ => 1#1) :
    Cert.Spec.Finite A ∧ Cert.Spec.Finite X ∧ Cert.Spec.Finite W ∧ Cert.Spec.Finite b := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨all_finite A _ _ _ h1, all_finite X _ _ _ h2, all_finite W _ _ _ h3, all_finite b _ _ _ h4⟩

end Cert.Finiteness

end
-- ==== Proof.Pieces.lean ====
/-
  What one grid step leaves in the three carried buffers (the running row maximum, the running denominator, the
  running numerator) and, at a row tile's last step, in the output block — each as a pure term of the step's inputs:
  the adjacency block, the tile of the projected features, and what the step before left in the three buffers. At a
  row tile's first step the three buffers are first reset (to -∞, 0, 0), so the previous contents do not enter.
-/
import proofs.«175535_j12962211299361_2_alg».proof.Proof.Gen.KernelIdeal.Frame
import Idealize.ShloMosaic.Lib.Pipeline.Value

set_option maxRecDepth 16384

noncomputable section

namespace Cert.KernelPieces

open Cert.KernelIdeal Cert.KernelIdeal.Gen Idealize.ShloMosaic Idealize.ShloMosaic.TcCoe Idealize.ShloMosaic.Tactic Idealize.SL.Sem

variable {F : FTy → Type} [FloatOps F]

/-- The zero offsets of a whole-buffer access. -/
theorem zero2 : (![0, 0] : Fin 2 → ℕ) = fun _ => 0 := by
  funext a; match a with | ⟨0, _⟩ => rfl | ⟨1, _⟩ => rfl

/-- The new running maximum, from the adjacency block and the previous maximum. -/
def mNew (x0 : Vec F S1024x1024 .f32) (mo : Vec F S1024x1 .f32) : Vec F S1024x1 .f32 := k0_pay2 (k0_pay8 x0 mo)
/-- The new running denominator. -/
def lNew (x0 : Vec F S1024x1024 .f32) (mo lo : Vec F S1024x1 .f32) : Vec F S1024x1 .f32 := k0_pay11 x0 mo mo lo
/-- The new running numerator, against a tile of the projected features. -/
def aNew (x0 : Vec F S1024x1024 .f32) (mo : Vec F S1024x1 .f32) (xt : Vec F S1024x128 .bf16) (ao : Vec F S1024x128 .f32) : Vec F S1024x128 .f32 :=
  k0_pay1 (k0_pay10 x0 mo mo) (k0_pay12 x0 mo xt) ao
/-- The output block: the rectified quotient of numerator and denominator. -/
def oNew (a : Vec F S1024x128 .f32) (l : Vec F S1024x1 .f32) : Vec F S1024x128 .f32 := k0_pay3 a l

theorem sA0 (c : Dev nD) (i : grid0.Coords) (arg2 : Memref sig .tc .vmem S1024x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond0_0 i) (hc1 : ¬cond0_1 i) (x0 : Vec F S1024x1024 .f32) (x1 : Vec F S8192x128 .bf16) :
    sout0_A_0 c i arg2 harg2 arg3 harg3 arg4 harg4 arg5 harg5 arg6 harg6 arg7 harg7 hc0 hc1 x0 x1 = mNew x0 (k0_pay4 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  try sl_unfold_run_names
  rw [View.canon_cons_unit_zero zero2]
  try sl_unfold_run_names
  simp only [View.readAt_eq_ld, harg2.read_unread, harg3.read_unread, View.ld_unit_zero (S := S1024x1024) zero2, View.ld_unit_zero (S := S1024x1) zero2, View.ld_unit_zero (S := S1024x128) zero2, View.readCov_unit_zero (S := S1024x1) _ zero2, View.readCov_unit_zero (S := S1024x128) _ zero2, harg5.read_unread, harg6.read_unread, harg7.read_unread]
  rfl

theorem sA1 (c : Dev nD) (i : grid0.Coords) (arg2 : Memref sig .tc .vmem S1024x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond0_0 i) (hc1 : ¬cond0_1 i) (x0 : Vec F S1024x1024 .f32) (x1 : Vec F S8192x128 .bf16) :
    sout0_A_1 c i arg2 harg2 arg3 harg3 arg4 harg4 arg5 harg5 arg6 harg6 arg7 harg7 hc0 hc1 x0 x1 = lNew x0 (k0_pay4 (F := F)) (k0_pay5 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  try sl_unfold_run_names
  rw [View.canon_cons_unit_zero zero2]
  try sl_unfold_run_names
  simp only [View.readAt_eq_ld, harg2.read_unread, harg3.read_unread, View.ld_unit_zero (S := S1024x1024) zero2, View.ld_unit_zero (S := S1024x1) zero2, View.ld_unit_zero (S := S1024x128) zero2, View.readCov_unit_zero (S := S1024x1) _ zero2, View.readCov_unit_zero (S := S1024x128) _ zero2, harg5.read_unread, harg6.read_unread, harg7.read_unread]
  rfl

theorem sA2 (c : Dev nD) (i : grid0.Coords) (arg2 : Memref sig .tc .vmem S1024x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : cond0_0 i) (hc1 : ¬cond0_1 i) (x0 : Vec F S1024x1024 .f32) (x1 : Vec F S8192x128 .bf16) :
    sout0_A_2 c i arg2 harg2 arg3 harg3 arg4 harg4 arg5 harg5 arg6 harg6 arg7 harg7 hc0 hc1 x0 x1 = aNew x0 (k0_pay4 (F := F)) (View.ld x1 (Rect.unit (k0_off1 i) S1024x128.size (k0_off1_inb i))) (k0_pay6 (F := F)) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  try sl_unfold_run_names
  rw [View.canon_cons_unit_zero zero2]
  try sl_unfold_run_names
  simp only [View.readAt_eq_ld, harg2.read_unread, harg3.read_unread, View.ld_unit_zero (S := S1024x1024) zero2, View.ld_unit_zero (S := S1024x1) zero2, View.ld_unit_zero (S := S1024x128) zero2, View.readCov_unit_zero (S := S1024x1) _ zero2, View.readCov_unit_zero (S := S1024x128) _ zero2, harg5.read_unread, harg6.read_unread, harg7.read_unread]
  rfl

theorem sB0 (c : Dev nD) (i : grid0.Coords) (arg2 : Memref sig .tc .vmem S1024x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : ¬cond0_1 i) (x0 : Vec F S1024x1024 .f32) (x1 : Vec F S8192x128 .bf16) (xs0 : Vec F S1024x1 .f32) (xs1 : Vec F S1024x1 .f32) (xs2 : Vec F S1024x128 .f32) :
    sout0_B_0 c i arg2 harg2 arg3 harg3 arg4 harg4 arg5 harg5 arg6 harg6 arg7 harg7 hc0 hc1 x0 x1 xs0 xs1 xs2 = mNew x0 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  try sl_unfold_run_names
  rw [View.canon_unit_zero zero2]
  try sl_unfold_run_names
  simp only [View.readAt_eq_ld, harg2.read_unread, harg3.read_unread, View.ld_unit_zero (S := S1024x1024) zero2, View.ld_unit_zero (S := S1024x1) zero2, View.ld_unit_zero (S := S1024x128) zero2, View.readCov_unit_zero (S := S1024x1) _ zero2, View.readCov_unit_zero (S := S1024x128) _ zero2, harg5.read_unread, harg6.read_unread, harg7.read_unread]
  rfl

theorem sB1 (c : Dev nD) (i : grid0.Coords) (arg2 : Memref sig .tc .vmem S1024x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : ¬cond0_1 i) (x0 : Vec F S1024x1024 .f32) (x1 : Vec F S8192x128 .bf16) (xs0 : Vec F S1024x1 .f32) (xs1 : Vec F S1024x1 .f32) (xs2 : Vec F S1024x128 .f32) :
    sout0_B_1 c i arg2 harg2 arg3 harg3 arg4 harg4 arg5 harg5 arg6 harg6 arg7 harg7 hc0 hc1 x0 x1 xs0 xs1 xs2 = lNew x0 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  try sl_unfold_run_names
  rw [View.canon_unit_zero zero2]
  try sl_unfold_run_names
  simp only [View.readAt_eq_ld, harg2.read_unread, harg3.read_unread, View.ld_unit_zero (S := S1024x1024) zero2, View.ld_unit_zero (S := S1024x1) zero2, View.ld_unit_zero (S := S1024x128) zero2, View.readCov_unit_zero (S := S1024x1) _ zero2, View.readCov_unit_zero (S := S1024x128) _ zero2, harg5.read_unread, harg6.read_unread, harg7.read_unread]
  rfl

theorem sB2 (c : Dev nD) (i : grid0.Coords) (arg2 : Memref sig .tc .vmem S1024x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : ¬cond0_1 i) (x0 : Vec F S1024x1024 .f32) (x1 : Vec F S8192x128 .bf16) (xs0 : Vec F S1024x1 .f32) (xs1 : Vec F S1024x1 .f32) (xs2 : Vec F S1024x128 .f32) :
    sout0_B_2 c i arg2 harg2 arg3 harg3 arg4 harg4 arg5 harg5 arg6 harg6 arg7 harg7 hc0 hc1 x0 x1 xs0 xs1 xs2 = aNew x0 xs0 (View.ld x1 (Rect.unit (k0_off1 i) S1024x128.size (k0_off1_inb i))) xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  try sl_unfold_run_names
  rw [View.canon_unit_zero zero2]
  try sl_unfold_run_names
  simp only [View.readAt_eq_ld, harg2.read_unread, harg3.read_unread, View.ld_unit_zero (S := S1024x1024) zero2, View.ld_unit_zero (S := S1024x1) zero2, View.ld_unit_zero (S := S1024x128) zero2, View.readCov_unit_zero (S := S1024x1) _ zero2, View.readCov_unit_zero (S := S1024x128) _ zero2, harg5.read_unread, harg6.read_unread, harg7.read_unread]
  rfl

theorem sC0 (c : Dev nD) (i : grid0.Coords) (arg2 : Memref sig .tc .vmem S1024x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i) (x0 : Vec F S1024x1024 .f32) (x1 : Vec F S8192x128 .bf16) (xs0 : Vec F S1024x1 .f32) (xs1 : Vec F S1024x1 .f32) (xs2 : Vec F S1024x128 .f32) :
    sout0_C_0 c i arg2 harg2 arg3 harg3 arg4 harg4 arg5 harg5 arg6 harg6 arg7 harg7 hc0 hc1 x0 x1 xs0 xs1 xs2 = mNew x0 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  try sl_unfold_run_names
  rw [View.canon_unit_zero zero2]
  try sl_unfold_run_names
  simp only [View.readAt_eq_ld, harg2.read_unread, harg3.read_unread, View.ld_unit_zero (S := S1024x1024) zero2, View.ld_unit_zero (S := S1024x1) zero2, View.ld_unit_zero (S := S1024x128) zero2, View.readCov_unit_zero (S := S1024x1) _ zero2, View.readCov_unit_zero (S := S1024x128) _ zero2, harg5.read_unread, harg6.read_unread, harg7.read_unread]
  rfl

theorem sC1 (c : Dev nD) (i : grid0.Coords) (arg2 : Memref sig .tc .vmem S1024x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i) (x0 : Vec F S1024x1024 .f32) (x1 : Vec F S8192x128 .bf16) (xs0 : Vec F S1024x1 .f32) (xs1 : Vec F S1024x1 .f32) (xs2 : Vec F S1024x128 .f32) :
    sout0_C_1 c i arg2 harg2 arg3 harg3 arg4 harg4 arg5 harg5 arg6 harg6 arg7 harg7 hc0 hc1 x0 x1 xs0 xs1 xs2 = lNew x0 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  try sl_unfold_run_names
  rw [View.canon_unit_zero zero2]
  try sl_unfold_run_names
  simp only [View.readAt_eq_ld, harg2.read_unread, harg3.read_unread, View.ld_unit_zero (S := S1024x1024) zero2, View.ld_unit_zero (S := S1024x1) zero2, View.ld_unit_zero (S := S1024x128) zero2, View.readCov_unit_zero (S := S1024x1) _ zero2, View.readCov_unit_zero (S := S1024x128) _ zero2, harg5.read_unread, harg6.read_unread, harg7.read_unread]
  rfl

theorem sC2 (c : Dev nD) (i : grid0.Coords) (arg2 : Memref sig .tc .vmem S1024x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i) (x0 : Vec F S1024x1024 .f32) (x1 : Vec F S8192x128 .bf16) (xs0 : Vec F S1024x1 .f32) (xs1 : Vec F S1024x1 .f32) (xs2 : Vec F S1024x128 .f32) :
    sout0_C_2 c i arg2 harg2 arg3 harg3 arg4 harg4 arg5 harg5 arg6 harg6 arg7 harg7 hc0 hc1 x0 x1 xs0 xs1 xs2 = aNew x0 xs0 (View.ld x1 (Rect.unit (k0_off1 i) S1024x128.size (k0_off1_inb i))) xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  try sl_unfold_run_names
  rw [View.canon_unit_zero zero2]
  try sl_unfold_run_names
  simp only [View.readAt_eq_ld, harg2.read_unread, harg3.read_unread, View.ld_unit_zero (S := S1024x1024) zero2, View.ld_unit_zero (S := S1024x1) zero2, View.ld_unit_zero (S := S1024x128) zero2, View.readCov_unit_zero (S := S1024x1) _ zero2, View.readCov_unit_zero (S := S1024x128) _ zero2, harg5.read_unread, harg6.read_unread, harg7.read_unread]
  rfl

theorem oC2 (c : Dev nD) (i : grid0.Coords) (arg2 : Memref sig .tc .vmem S1024x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x128 .f32) (harg7 : arg7.IsWhole) (hc0 : ¬cond0_0 i) (hc1 : cond0_1 i) (x0 : Vec F S1024x1024 .f32) (x1 : Vec F S8192x128 .bf16) (xs0 : Vec F S1024x1 .f32) (xs1 : Vec F S1024x1 .f32) (xs2 : Vec F S1024x128 .f32) :
    out0_C_2 c i arg2 harg2 arg3 harg3 arg4 harg4 arg5 harg5 arg6 harg6 arg7 harg7 hc0 hc1 x0 x1 xs0 xs1 xs2 = oNew (aNew x0 xs0 (View.ld x1 (Rect.unit (k0_off1 i) S1024x128.size (k0_off1_inb i))) xs2) (lNew x0 xs0 xs1) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  try sl_unfold_run_names
  rw [View.canon_unit_zero zero2]
  try sl_unfold_run_names
  simp only [View.readAt_eq_ld, harg2.read_unread, harg3.read_unread, View.ld_unit_zero (S := S1024x1024) zero2, View.ld_unit_zero (S := S1024x1) zero2, View.ld_unit_zero (S := S1024x128) zero2, View.readCov_unit_zero (S := S1024x1) _ zero2, View.readCov_unit_zero (S := S1024x128) _ zero2, harg5.read_unread, harg6.read_unread, harg7.read_unread]
  rfl

end Cert.KernelPieces

end
-- ==== Proof.OnlineSoftmax.lean ====
import Idealize.ShloMosaic.PureOps.Ideal
import Idealize.ShloMosaic.PureOps.Ideal.Laws

/-!
# Online softmax over the extended reals

A row-softmax-weighted sum can be accumulated tile by tile, carrying a running shift m, a running
denominator l and a running numerator a.  Over exact extended reals the shift cancels: with S_F and
S_G the unshifted prefix sums of exp(ℓ j) and exp(ℓ j)·v j, the accumulation keeps
l = exp(-m)·S_F and a = exp(-m)·S_G for whatever real m is current, and the final quotient a / l is
S_G / S_F, which is also what the plain softmax (shifted by any real M) gives.  None of the lemmas
needs the shift to be the maximum, only to be a real number.
-/

noncomputable section

open Idealize.ShloMosaic

namespace Cert.OnlineSoftmax

/-- the inclusion of the reals in the extended reals commutes with finite sums -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- the prefix sum over the first n + 1 tiles of width T is the one over the first n tiles plus
    the sum over tile n -/
theorem prefix_step (f : ℕ → ℝ) (T n : ℕ) :
    ∑ j ∈ Finset.range (T * (n + 1)), f j
      = ∑ j ∈ Finset.range (T * n), f j + ∑ q : Fin T, f (T * n + q.val) := by
  rw [Nat.mul_succ, Finset.sum_range_add, Finset.sum_range fun x => f (T * n + x)]

theorem range_eq_univ (f : ℕ → ℝ) (N : ℕ) :
    ∑ j ∈ Finset.range N, f j = ∑ j : Fin N, f j.val :=
  Finset.sum_range f

/-- a fold of max from ⊥ over a nonempty family of reals is a real -/
theorem fold_max_real {T : ℕ} (hT : 0 < T) (g : Fin T → ℝ) :
    ∃ r : ℝ, (Finset.univ : Finset (Fin T)).fold max (⊥ : EReal) (fun q => (g q : EReal))
      = (r : EReal) := by
  -- the fold is below ⊤ because every member is, and above ⊥ because member 0 is
  have htop : (Finset.univ : Finset (Fin T)).fold max (⊥ : EReal) (fun q => (g q : EReal)) ≠ ⊤ :=
    ne_of_lt ((Finset.fold_max_lt _).mpr ⟨bot_lt_top, fun q _ => EReal.coe_lt_top (g q)⟩)
  have hbot : (Finset.univ : Finset (Fin T)).fold max (⊥ : EReal) (fun q => (g q : EReal)) ≠ ⊥ :=
    ne_of_gt ((Finset.lt_fold_max _).mpr
      (Or.inr ⟨⟨0, hT⟩, Finset.mem_univ _, EReal.bot_lt_coe (g ⟨0, hT⟩)⟩))
  exact ⟨_, (EReal.coe_toReal htop hbot).symm⟩

theorem max_bot_coe (r : ℝ) : max (⊥ : EReal) (r : EReal) = (r : EReal) :=
  max_eq_right bot_le

theorem max_coe_coe (a b : ℝ) : max (a : EReal) (b : EReal) = ((max a b : ℝ) : EReal) :=
  (EReal.coe_strictMono.monotone.map_max).symm

/-- exp of a difference of reals, as a real product: exp(a - b) = exp(-b)·exp(a) -/
theorem exp_coe_sub_coe (a b : ℝ) :
    Ideal.exp ((a : EReal) - (b : EReal)) = ((Real.exp (-b) * Real.exp a : ℝ) : EReal) := by
  rw [← EReal.coe_sub, Ideal.exp_coe, sub_eq_add_neg, Real.exp_add, mul_comm]

/-- the denominator terms of one tile: ∑ exp(g q - m) = exp(-m)·∑ exp(g q) -/
theorem tile_den (mn : ℝ) {T : ℕ} (g : Fin T → ℝ) :
    ∑ q : Fin T, Ideal.exp ((g q : EReal) - (mn : EReal))
      = ((Real.exp (-mn) * ∑ q : Fin T, Real.exp (g q) : ℝ) : EReal) := by
  simp_rw [exp_coe_sub_coe]
  rw [← coe_sum, Finset.mul_sum]

/-- the numerator terms of one tile: ∑ exp(g q - m)·v q = exp(-m)·∑ exp(g q)·v q -/
theorem tile_num (mn : ℝ) {T : ℕ} (g v : Fin T → ℝ) :
    ∑ q : Fin T, Ideal.exp ((g q : EReal) - (mn : EReal)) * (v q : EReal)
      = ((Real.exp (-mn) * ∑ q : Fin T, Real.exp (g q) * v q : ℝ) : EReal) := by
  simp_rw [exp_coe_sub_coe, ← EReal.coe_mul]
  rw [← coe_sum, Finset.mul_sum]
  simp_rw [mul_assoc]

/-- the rescaling factor of a step undoes the old shift and applies the new one:
    exp(mo - mn)·(exp(-mo)·S) = exp(-mn)·S -/
theorem rescale (mo mn S : ℝ) :
    Ideal.exp ((mo : EReal) - (mn : EReal)) * ((Real.exp (-mo) * S : ℝ) : EReal)
      = ((Real.exp (-mn) * S : ℝ) : EReal) := by
  have h : Real.exp mo * Real.exp (-mo) = 1 := by
    rw [← Real.exp_add, add_neg_cancel, Real.exp_zero]
  rw [exp_coe_sub_coe, ← EReal.coe_mul]
  congr 1
  linear_combination (Real.exp (-mn) * S) * h

/-- first tile, denominators: from running max ⊥ and running denominator 0 -/
theorem den_first (mn : ℝ) {T : ℕ} (g : Fin T → ℝ) :
    Ideal.exp (⊥ - (mn : EReal)) * 0 + ∑ q : Fin T, Ideal.exp ((g q : EReal) - (mn : EReal))
      = ((Real.exp (-mn) * (0 + ∑ q : Fin T, Real.exp (g q)) : ℝ) : EReal) := by
  rw [mul_zero, zero_add, zero_add, tile_den]

/-- a later tile, denominators -/
theorem den_step (mo mn S : ℝ) {T : ℕ} (g : Fin T → ℝ) :
    Ideal.exp ((mo : EReal) - (mn : EReal)) * ((Real.exp (-mo) * S : ℝ) : EReal)
        + ∑ q : Fin T, Ideal.exp ((g q : EReal) - (mn : EReal))
      = ((Real.exp (-mn) * (S + ∑ q : Fin T, Real.exp (g q)) : ℝ) : EReal) := by
  rw [rescale, tile_den, ← EReal.coe_add, mul_add]

theorem num_first (mn : ℝ) {T : ℕ} (g v : Fin T → ℝ) :
    Ideal.exp (⊥ - (mn : EReal)) * 0
        + ∑ q : Fin T, Ideal.exp ((g q : EReal) - (mn : EReal)) * (v q : EReal)
      = ((Real.exp (-mn) * (0 + ∑ q : Fin T, Real.exp (g q) * v q) : ℝ) : EReal) := by
  rw [mul_zero, zero_add, zero_add, tile_num]

theorem num_step (mo mn S : ℝ) {T : ℕ} (g v : Fin T → ℝ) :
    Ideal.exp ((mo : EReal) - (mn : EReal)) * ((Real.exp (-mo) * S : ℝ) : EReal)
        + ∑ q : Fin T, Ideal.exp ((g q : EReal) - (mn : EReal)) * (v q : EReal)
      = ((Real.exp (-mn) * (S + ∑ q : Fin T, Real.exp (g q) * v q) : ℝ) : EReal) := by
  rw [rescale, tile_num, ← EReal.coe_add, mul_add]

/-- the final quotient: the common factor exp(-m) cancels -/
theorem quot (mn SG SF : ℝ) (h : SF ≠ 0) :
    Ideal.div ((Real.exp (-mn) * SG : ℝ) : EReal) ((Real.exp (-mn) * SF : ℝ) : EReal)
      = ((SG / SF : ℝ) : EReal) := by
  have he : Real.exp (-mn) ≠ 0 := (Real.exp_pos _).ne'
  rw [Ideal.div_coe (mul_ne_zero he h), ← EReal.coe_mul]
  congr 1
  field_simp

/-- the reference's row: softmax weights shifted by ANY real M, normalized by their total (with
    the reduce's initial value 0 in front), against v -/
theorem ref_row {N : ℕ} (hN : 0 < N) (M : ℝ) (g v : Fin N → ℝ) :
    ∑ j : Fin N, Ideal.div (Ideal.exp ((g j : EReal) - (M : EReal)))
        (0 + ∑ j' : Fin N, Ideal.exp ((g j' : EReal) - (M : EReal))) * (v j : EReal)
      = (((∑ j : Fin N, Real.exp (g j) * v j) / (∑ j : Fin N, Real.exp (g j)) : ℝ) : EReal) := by
  haveI : Nonempty (Fin N) := ⟨⟨0, hN⟩⟩
  -- the total of the unshifted weights is positive
  have hD : 0 < ∑ j : Fin N, Real.exp (g j) :=
    Finset.sum_pos (fun j _ => Real.exp_pos (g j)) Finset.univ_nonempty
  have he : Real.exp (-M) ≠ 0 := (Real.exp_pos _).ne'
  rw [zero_add, tile_den]
  simp_rw [Ideal.div_coe (mul_ne_zero he hD.ne'), exp_coe_sub_coe, ← EReal.coe_mul]
  rw [← coe_sum]
  congr 1
  rw [Finset.sum_div]
  refine Finset.sum_congr rfl fun j _ => ?_
  field_simp

end Cert.OnlineSoftmax

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.Payload.lean ====
/-
  One grid step's arithmetic, read at one entry, on the extended reals.

  With ℓ(r, q) the masked logit of the adjacency block's entry (r, q) (entries at or below the threshold lowered by the
  offset), a step takes row r's previous running maximum m, denominator l and numerator a(r, ·) to

      m' = max m (max over q of ℓ(r, q)),
      l' = exp (m - m') · l + ∑ q, exp (ℓ(r, q) - m'),
      a'(r, d) = exp (m - m') · a(r, d) + ∑ q, exp (ℓ(r, q) - m') · x(q, d),

  where x is the step's tile of the projected features; the output at (r, d) is the leaky rectifier of a(r, d) / l(r).
  At a row tile's first step the three are first reset to -∞, 0 and 0. Each statement below reads one of the step's
  pure terms at an entry given by its coordinates: a column vector (shape [a, 1]) is read at (r, 0), a row reduction at
  row r runs over the entries (r, q), and the product's entry (r, d) is the sum over q of the operands' entries (r, q)
  and (q, d).
-/
import proofs.«175535_j12962211299361_2_alg».proof.Proof.Pieces
import proofs.«175535_j12962211299361_2_alg».proof.Proof.Spec
import proofs.«175535_j12962211299361_2_alg».proof.Proof.LibPlainProduct
import Idealize.ShloMosaic.Lib.ValueIdx
import Idealize.ShloMosaic.Lib.Pipeline.Value
import Idealize.ShloMosaic.Lib.ValueLayout
import Idealize.ShloMosaic.PureOps.Ideal.Laws

noncomputable section

namespace Cert.KernelPayload

open Cert.KernelIdeal Cert.KernelIdeal.Gen Cert.KernelPieces Idealize.ShloMosaic Idealize.ShloMosaic.ValueIdx

/-! ## Column vectors read at an index -/

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Words and conditions -/

/-- The word 0xFF800000 is minus infinity. -/
theorem negInf : Ideal.ofBits .f32 0xFF800000#32 = (⊥ : EReal) := by
  simp [Ideal.ofBits, Ideal.ieee]

/-- A select on "a ≤ t" is the if on it. -/
theorem select_ole (a t x y : EReal) :
    Scalar.select (Ideal.cmp .ole a t) x y = if a ≤ t then x else y := by
  by_cases h : a ≤ t <;> simp [Scalar.select, Ideal.cmp, h]

/-- A select on "a ≥ t" is the if on "t ≤ a". -/
theorem select_oge (a t x y : EReal) :
    Scalar.select (Ideal.cmp .oge a t) x y = if t ≤ a then x else y := by
  by_cases h : t ≤ a <;> simp [Scalar.select, Ideal.cmp, h]

/-- the maximum of a block row's masked logits, from ⊥ -/
def tmax (x0 : Vec Ideal S1024x1024 .f32) (r : Fin 1024) : EReal :=
  (Finset.univ : Finset (Fin 1024)).fold max (⊥ : EReal) (fun q => Cert.Spec.logit (x0 (ix2 r q)))

/-! ## The resets -/

theorem pay4_apply (y : S1024x1.Idx) : k0_pay4 (F := Ideal) y = (⊥ : EReal) := by
  unfold k0_pay4
  rw [shapeCast_self]
  exact negInf

theorem pay5_apply (y : S1024x1.Idx) : k0_pay5 (F := Ideal) y = 0 := by
  unfold k0_pay5
  rw [shapeCast_self]
  exact Ideal.ofBits_zero_f32

theorem pay6_apply (y : S1024x128.Idx) : k0_pay6 (F := Ideal) y = 0 := by
  unfold k0_pay6
  rw [shapeCast_self]
  exact Ideal.ofBits_zero_f32

/-! ## The masked logit, the row maximum, the weights -/

/-- The mask at an entry: the masked logit of the adjacency entry. -/
theorem pay7_apply (x0 : Vec Ideal S1024x1024 .f32) (r q : Fin 1024) :
    k0_pay7 x0 (ix2 r q) = Cert.Spec.logit (x0 (ix2 r q)) := by
  unfold k0_pay7
  exact select_ole _ _ _ _

/-- The index a row reduction inserts coordinate q at, for row r, is (r, q). -/
theorem lift_row (h : S1024x1024.Reduces [1] S1024) (r : Fin 1024) (q : Fin 1024) :
    h.lift (ix1 r) q = ix2 r q := by
  funext a
  refine Fin.ext ?_
  match a with
  | ⟨0, _⟩ => rfl
  | ⟨1, _⟩ => rfl

/-- The new running maximum at row r: the larger of the old one and the block row's maximum. -/
theorem pay8_apply (x0 : Vec Ideal S1024x1024 .f32) (mo : Vec Ideal S1024x1 .f32) (r : Fin 1024) :
    k0_pay8 x0 mo (ix2 r (0 : Fin 1)) = max (mo (ix2 r (0 : Fin 1))) (tmax x0 r) := by
  unfold k0_pay8
  refine congrArg (max (mo (ix2 r (0 : Fin 1)))) ?_
  refine (shapeCast_a_a1_apply _ _ r (0 : Fin 1)).trans ?_
  refine (Ideal.multiReduction_maximumf_single (k0_pay7 x0) 0xFF800000#32 _ _ _ (ix1 r)).trans ?_
  unfold tmax
  rw [Ideal.ofBits_def, negInf]
  refine Finset.fold_congr fun q _ => ?_
  exact (congrArg (k0_pay7 x0) (lift_row _ r q)).trans (pay7_apply x0 r q)

/-- The new running maximum is the row maximum payload (the cast to its own shape is the identity). -/
theorem mNew_eq (x0 : Vec Ideal S1024x1024 .f32) (mo : Vec Ideal S1024x1 .f32) :
    mNew x0 mo = k0_pay8 x0 mo := by
  unfold mNew k0_pay2
  exact shapeCast_self _ _

theorem mNew_apply (x0 : Vec Ideal S1024x1024 .f32) (mo : Vec Ideal S1024x1 .f32) (r : Fin 1024) :
    mNew x0 mo (ix2 r (0 : Fin 1)) = max (mo (ix2 r (0 : Fin 1))) (tmax x0 r) := by
  rw [mNew_eq]
  exact pay8_apply x0 mo r

/-- The weight of entry (r, q): exp of its masked logit less the new running maximum of row r. -/
theorem pay9_apply (x0 : Vec Ideal S1024x1024 .f32) (mo : Vec Ideal S1024x1 .f32) (r q : Fin 1024) :
    k0_pay9 x0 mo (ix2 r q)
      = Ideal.exp (Cert.Spec.logit (x0 (ix2 r q)) - mNew x0 mo (ix2 r (0 : Fin 1))) := by
  rw [mNew_eq]
  unfold k0_pay9
  show Ideal.exp (k0_pay7 x0 (ix2 r q) - broadcastTo S1024x1024 (k0_pay8 x0 mo) _ (ix2 r q)) = _
  exact congrArg Ideal.exp (congrArg₂ (· - ·) (pay7_apply x0 r q) (broadcastTo_a1_ab_apply _ _ r q))

/-- The rescaling factor of row r: exp of a previous maximum less the new one. -/
theorem pay10_apply (x0 : Vec Ideal S1024x1024 .f32) (mo mo' : Vec Ideal S1024x1 .f32) (r : Fin 1024) :
    k0_pay10 x0 mo mo' (ix2 r (0 : Fin 1))
      = Ideal.exp (mo' (ix2 r (0 : Fin 1)) - mNew x0 mo (ix2 r (0 : Fin 1))) := by
  rw [mNew_eq]
  rfl

/-- The new running denominator at row r. -/
theorem pay11_apply (x0 : Vec Ideal S1024x1024 .f32) (mo mo' lo : Vec Ideal S1024x1 .f32) (r : Fin 1024) :
    k0_pay11 x0 mo mo' lo (ix2 r (0 : Fin 1))
      = Ideal.exp (mo' (ix2 r (0 : Fin 1)) - mNew x0 mo (ix2 r (0 : Fin 1))) * lo (ix2 r (0 : Fin 1))
        + ∑ q : Fin 1024, Ideal.exp (Cert.Spec.logit (x0 (ix2 r q)) - mNew x0 mo (ix2 r (0 : Fin 1))) := by
  unfold k0_pay11
  rw [shapeCast_self]
  show k0_pay10 x0 mo mo' (ix2 r (0 : Fin 1)) * lo (ix2 r (0 : Fin 1))
      + shapeCast S1024x1 (multiReduction .add [1] S1024 (k0_pay9 x0 mo) 0x00000000#32 _ _ _) _ (ix2 r (0 : Fin 1)) = _
  refine congrArg₂ (· + ·) (congrArg (· * lo (ix2 r (0 : Fin 1))) (pay10_apply x0 mo mo' r)) ?_
  refine (shapeCast_a_a1_apply _ _ r (0 : Fin 1)).trans ?_
  refine (Ideal.multiReduction_add_single (k0_pay9 x0 mo) 0x00000000#32 _ _ _ (ix1 r)).trans ?_
  refine Finset.sum_congr rfl fun q _ => ?_
  exact (congrArg (k0_pay9 x0 mo) (lift_row _ r q)).trans (pay9_apply x0 mo r q)

theorem lNew_apply (x0 : Vec Ideal S1024x1024 .f32) (mo lo : Vec Ideal S1024x1 .f32) (r : Fin 1024) :
    lNew x0 mo lo (ix2 r (0 : Fin 1))
      = Ideal.exp (mo (ix2 r (0 : Fin 1)) - mNew x0 mo (ix2 r (0 : Fin 1))) * lo (ix2 r (0 : Fin 1))
        + ∑ q : Fin 1024, Ideal.exp (Cert.Spec.logit (x0 (ix2 r q)) - mNew x0 mo (ix2 r (0 : Fin 1))) :=
  pay11_apply x0 mo mo lo r

/-! ## The numerator and the output -/

/-- The block's contribution to the numerator at (r, d): the weights of row r against column d of the feature tile. -/
theorem pay12_apply (x0 : Vec Ideal S1024x1024 .f32) (mo : Vec Ideal S1024x1 .f32) (xt : Vec Ideal S1024x128 .bf16)
    (r : Fin 1024) (d : Fin 128) :
    k0_pay12 x0 mo xt (ix2 r d)
      = ∑ q : Fin 1024, Ideal.exp (Cert.Spec.logit (x0 (ix2 r q)) - mNew x0 mo (ix2 r (0 : Fin 1))) * xt (ix2 q d) := by
  unfold k0_pay12
  rw [shapeCast_self]
  refine (Cert.PlainProduct.matmul_zero_entry dot_S1024x1024_S1024x128_S1024x128_1_0_0_1_n_n rfl rfl
    (fun _ _ => rfl) (fun _ _ => rfl) (fun _ _ => rfl) (fun _ _ => rfl)
    (truncf .bf16 (k0_pay9 x0 mo) _) xt r d).trans ?_
  refine Finset.sum_congr rfl fun q _ => ?_
  exact congrArg (· * xt (ix2 q d)) (pay9_apply x0 mo r q)

/-- The accumulation at (r, d): the old numerator rescaled by row r's factor, plus the block's contribution. -/
theorem pay1_apply (v18 : Vec Ideal S1024x1 .f32) (v33 ao : Vec Ideal S1024x128 .f32) (r : Fin 1024) (d : Fin 128) :
    k0_pay1 v18 v33 ao (ix2 r d) = v18 (ix2 r (0 : Fin 1)) * ao (ix2 r d) + v33 (ix2 r d) := by
  unfold k0_pay1
  rw [shapeCast_self]
  show broadcastTo S1024x128 v18 _ (ix2 r d) * ao (ix2 r d) + v33 (ix2 r d) = _
  exact congrArg (· * ao (ix2 r d) + v33 (ix2 r d)) (broadcastTo_a1_ab_apply _ _ r d)

theorem aNew_apply (x0 : Vec Ideal S1024x1024 .f32) (mo : Vec Ideal S1024x1 .f32) (xt : Vec Ideal S1024x128 .bf16)
    (ao : Vec Ideal S1024x128 .f32) (r : Fin 1024) (d : Fin 128) :
    aNew x0 mo xt ao (ix2 r d)
      = Ideal.exp (mo (ix2 r (0 : Fin 1)) - mNew x0 mo (ix2 r (0 : Fin 1))) * ao (ix2 r d)
        + ∑ q : Fin 1024, Ideal.exp (Cert.Spec.logit (x0 (ix2 r q)) - mNew x0 mo (ix2 r (0 : Fin 1))) * xt (ix2 q d) := by
  unfold aNew
  rw [pay1_apply, pay10_apply, pay12_apply]

/-- The output at (r, d): the rectified quotient of the numerator there by row r's denominator. -/
theorem pay3_apply (a : Vec Ideal S1024x128 .f32) (l : Vec Ideal S1024x1 .f32) (r : Fin 1024) (d : Fin 128) :
    k0_pay3 a l (ix2 r d) = Cert.Spec.leaky (Ideal.div (a (ix2 r d)) (l (ix2 r (0 : Fin 1)))) := by
  unfold k0_pay3
  show Scalar.select
      (Ideal.cmp .oge (Ideal.div (a (ix2 r d)) (broadcastTo S1024x128 l _ (ix2 r d))) (Ideal.ofBits .f32 0x00000000#32))
      (Ideal.div (a (ix2 r d)) (broadcastTo S1024x128 l _ (ix2 r d)))
      (Ideal.ofBits .f32 0x3C23D70A#32 * Ideal.div (a (ix2 r d)) (broadcastTo S1024x128 l _ (ix2 r d))) = _
  rw [broadcastTo_a1_ab_apply, select_oge, Ideal.ofBits_zero_f32]
  rfl

theorem oNew_apply (a : Vec Ideal S1024x128 .f32) (l : Vec Ideal S1024x1 .f32) (r : Fin 1024) (d : Fin 128) :
    oNew a l (ix2 r d) = Cert.Spec.leaky (Ideal.div (a (ix2 r d)) (l (ix2 r (0 : Fin 1)))) :=
  pay3_apply a l r d

end Cert.KernelPayload

end
-- ==== Proof.Step.lean ====
/-
  One grid step on one row, as arithmetic. The kernel keeps, per row, a running maximum `m`, a running denominator
  `l` and running numerators `a d`. The quantities that do not depend on the running maximum are `l · exp m` and
  `a d · exp m`: the unshifted sums `∑ exp ℓⱼ` and `∑ exp ℓⱼ · vⱼ` over the columns seen so far. A step rescales by
  `exp (m - m')` and adds the tile's terms shifted by the new maximum `m'`, which keeps that form; the maximum only
  ever needs to be a real number.
-/
import proofs.«175535_j12962211299361_2_alg».proof.Proof.Pieces
import proofs.«175535_j12962211299361_2_alg».proof.Proof.Spec
import proofs.«175535_j12962211299361_2_alg».proof.Proof.OnlineSoftmax
import proofs.«175535_j12962211299361_2_alg».proof.Proof.Payload
import Idealize.ShloMosaic.Lib.ValueIdx

noncomputable section

namespace Cert.KernelStep

open Cert.KernelIdeal Cert.KernelIdeal.Gen Cert.KernelPieces Idealize.ShloMosaic Idealize.ShloMosaic.ValueIdx

/-- One later step on one row: from a real running maximum `mr` with the denominator and numerators at
    `exp (-mr)` times the unshifted prefix sums `SF`, `SG d`, the step leaves a real maximum `mn` with the
    denominator and numerators at `exp (-mn)` times the prefix sums extended by the tile. -/
theorem step_later (x0 : Vec Ideal S1024x1024 .f32) (xt : Vec Ideal S1024x128 .bf16) (mo lo : Vec Ideal S1024x1 .f32)
    (ao : Vec Ideal S1024x128 .f32) (r : Fin 1024) (g : Fin 1024 → ℝ) (v : Fin 1024 → Fin 128 → ℝ)
    (hx : ∀ q : Fin 1024, Cert.Spec.logit (x0 (ix2 r q)) = ((g q : ℝ) : EReal))
    (hv : ∀ (q : Fin 1024) (d : Fin 128), xt (ix2 q d) = ((v q d : ℝ) : EReal))
    (mr SF : ℝ) (SG : Fin 128 → ℝ)
    (hm : mo (ix2 r (0 : Fin 1)) = ((mr : ℝ) : EReal))
    (hl : lo (ix2 r (0 : Fin 1)) = ((Real.exp (-mr) * SF : ℝ) : EReal))
    (ha : ∀ d : Fin 128, ao (ix2 r d) = ((Real.exp (-mr) * SG d : ℝ) : EReal)) :
    ∃ mn : ℝ, mNew x0 mo (ix2 r (0 : Fin 1)) = ((mn : ℝ) : EReal)
      ∧ lNew x0 mo lo (ix2 r (0 : Fin 1)) = ((Real.exp (-mn) * (SF + ∑ q : Fin 1024, Real.exp (g q)) : ℝ) : EReal)
      ∧ ∀ d : Fin 128, aNew x0 mo xt ao (ix2 r d) = ((Real.exp (-mn) * (SG d + ∑ q : Fin 1024, Real.exp (g q) * v q d) : ℝ) : EReal) := by
  obtain ⟨tm, htm⟩ := Cert.OnlineSoftmax.fold_max_real (T := 1024) (by norm_num) g
  have hmn : mNew x0 mo (ix2 r (0 : Fin 1)) = ((max mr tm : ℝ) : EReal) := by
    rw [Cert.KernelPayload.mNew_apply, hm, Cert.KernelPayload.tmax, funext hx, htm, Cert.OnlineSoftmax.max_coe_coe]
  refine ⟨max mr tm, hmn, ?_, fun d => ?_⟩
  · rw [Cert.KernelPayload.lNew_apply, hmn, hm, hl]
    simp only [hx]
    exact Cert.OnlineSoftmax.den_step mr (max mr tm) SF g
  · rw [Cert.KernelPayload.aNew_apply, hmn, hm, ha d]
    simp only [hx, hv]
    exact Cert.OnlineSoftmax.num_step mr (max mr tm) (SG d) g (fun q => v q d)

/-- A row tile's first step on one row: from the reset state (maximum -∞, denominator 0, numerators 0). -/
theorem step_first (x0 : Vec Ideal S1024x1024 .f32) (xt : Vec Ideal S1024x128 .bf16) (mo lo : Vec Ideal S1024x1 .f32)
    (ao : Vec Ideal S1024x128 .f32) (r : Fin 1024) (g : Fin 1024 → ℝ) (v : Fin 1024 → Fin 128 → ℝ)
    (hx : ∀ q : Fin 1024, Cert.Spec.logit (x0 (ix2 r q)) = ((g q : ℝ) : EReal))
    (hv : ∀ (q : Fin 1024) (d : Fin 128), xt (ix2 q d) = ((v q d : ℝ) : EReal))
    (hm : mo (ix2 r (0 : Fin 1)) = (⊥ : EReal))
    (hl : lo (ix2 r (0 : Fin 1)) = 0)
    (ha : ∀ d : Fin 128, ao (ix2 r d) = 0) :
    ∃ mn : ℝ, mNew x0 mo (ix2 r (0 : Fin 1)) = ((mn : ℝ) : EReal)
      ∧ lNew x0 mo lo (ix2 r (0 : Fin 1)) = ((Real.exp (-mn) * (0 + ∑ q : Fin 1024, Real.exp (g q)) : ℝ) : EReal)
      ∧ ∀ d : Fin 128, aNew x0 mo xt ao (ix2 r d) = ((Real.exp (-mn) * (0 + ∑ q : Fin 1024, Real.exp (g q) * v q d) : ℝ) : EReal) := by
  obtain ⟨tm, htm⟩ := Cert.OnlineSoftmax.fold_max_real (T := 1024) (by norm_num) g
  have hmn : mNew x0 mo (ix2 r (0 : Fin 1)) = ((tm : ℝ) : EReal) := by
    rw [Cert.KernelPayload.mNew_apply, hm, Cert.KernelPayload.tmax, funext hx, htm, Cert.OnlineSoftmax.max_bot_coe]
  refine ⟨tm, hmn, ?_, fun d => ?_⟩
  · rw [Cert.KernelPayload.lNew_apply, hmn, hm, hl]
    simp only [hx]
    exact Cert.OnlineSoftmax.den_first tm g
  · rw [Cert.KernelPayload.aNew_apply, hmn, hm, ha d]
    simp only [hx, hv]
    exact Cert.OnlineSoftmax.num_first tm g (fun q => v q d)

end Cert.KernelStep

end
-- ==== Proof.Blocks.lean ====
/-
  Where a grid step's blocks sit in the arrays. The grid is 8 row tiles by 8 column tiles, visited row tile by row
  tile: step `t` works on row tile `t / 8` and column tile `t % 8`. The adjacency block of the step holds rows
  `1024·(t / 8) + r` and columns `1024·(t % 8) + q`; the projected features are staged whole, and the step uses their
  rows `1024·(t % 8) + q`; the output block of row tile `t / 8` is written back after that row tile's last step only.
-/
import proofs.«175535_j12962211299361_2_alg».proof.Proof.Gen.KernelIdeal.Frame
import Idealize.ShloMosaic.Lib.Pipeline.Value
import Idealize.ShloMosaic.Lib.ValueIdx

set_option maxRecDepth 16384

noncomputable section

namespace Cert.KernelBlocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block index of every window and the feature tile's offsets, at every step: decided once over the grid. -/
theorem idx_facts : ∀ t : Fin cfg0.N, win0_0.index t (0 : Fin 2) = t.val / 8 ∧ win0_0.index t (1 : Fin 2) = t.val % 8
    ∧ win0_2.index t (0 : Fin 2) = t.val / 8 ∧ win0_2.index t (1 : Fin 2) = 0
    ∧ win0_1.index t (0 : Fin 2) = 0 ∧ win0_1.index t (1 : Fin 2) = 0
    ∧ k0_off1 (grid0.coords t) (0 : Fin 2) = 1024 * (t.val % 8) ∧ k0_off1 (grid0.coords t) (1 : Fin 2) = 0 :=
  (by decide +kernel : ∀ t : Fin grid0.N, _)

/-- The output block is written back exactly after a row tile's last step. -/
theorem flush_facts : ∀ t : Fin cfg0.N, (cfg0.win 2).flush t = true ↔ t.val % 8 = 7 :=
  (by decide +kernel : ∀ t : Fin grid0.N, _)

theorem N64 : cfg0.N = 64 := N_0

/-- The array row that row `r` of step `t`'s blocks is. -/
def rowOf (t : Fin cfg0.N) (r : Fin 1024) : Fin 8192 :=
  ⟨1024 * (t.val / 8) + r.val, by have := lt_of_lt_of_eq t.isLt N64; have := r.isLt; omega⟩

/-- The array column that column `q` of step `t`'s adjacency block is. -/
def colOf (t : Fin cfg0.N) (q : Fin 1024) : Fin 8192 :=
  ⟨1024 * (t.val % 8) + q.val, by have := q.isLt; omega⟩

/-- Step `t`'s adjacency block at `(r, q)` is the adjacency matrix at `(rowOf t r, colOf t q)`. -/
theorem iblk0_apply (c : Dev nD) (t : Fin cfg0.N) (r q : Fin 1024) :
    (iblk m c 0 t : Vec F S1024x1024 .f32) (ix2 r q) = (V m c main_arg0 : Vec F S8192x8192 .f32) (ix2 (rowOf t r) (colOf t q)) := by
  unfold iblk
  rw [View.read_apply]
  show V m c main_arg0 _ = V m c main_arg0 _
  congr 1
  funext a
  apply Fin.ext
  match a with
  | ⟨0, _⟩ => show win0_0.index t 0 * 1024 + 1 * r.val = 1024 * (t.val / 8) + r.val; rw [(idx_facts t).1]; omega
  | ⟨1, _⟩ => show win0_0.index t 1 * 1024 + 1 * q.val = 1024 * (t.val % 8) + q.val; rw [(idx_facts t).2.1]; omega

/-- The tile of the projected features step `t` loads, at `(q, d)`, is the projected features at `(colOf t q, d)`. -/
theorem tile_apply (c : Dev nD) (t : Fin cfg0.N) (q : Fin 1024) (d : Fin 128) :
    (View.ld (iblk m c 1 t : Vec F S8192x128 .bf16) (Rect.unit (k0_off1 (grid0.coords t)) S1024x128.size (k0_off1_inb (grid0.coords t))) : Vec F S1024x128 .bf16) (ix2 q d)
      = (V m c main_v5 : Vec F S8192x128 .bf16) (ix2 (colOf t q) d) := by
  show iblk m c 1 t _ = _
  unfold iblk
  rw [View.read_apply]
  show V m c main_v5 _ = V m c main_v5 _
  congr 1
  funext a
  apply Fin.ext
  match a with
  | ⟨0, _⟩ => show win0_1.index t 0 * 8192 + 1 * (k0_off1 (grid0.coords t) 0 + 1 * q.val) = 1024 * (t.val % 8) + q.val; rw [(idx_facts t).2.2.2.2.1, (idx_facts t).2.2.2.2.2.2.1]; omega
  | ⟨1, _⟩ => show win0_1.index t 1 * 128 + 1 * (k0_off1 (grid0.coords t) 1 + 1 * d.val) = d.val; rw [(idx_facts t).2.2.2.2.2.1, (idx_facts t).2.2.2.2.2.2.2]; omega

end Cert.KernelBlocks

end
-- ==== Proof.Invariant.lean ====
/-
  The state of the three carried buffers after every grid step, by induction on the step: within a row tile, after
  the step on column tile `k`, each row's running maximum is a real number `mr` and its denominator and numerators
  are `exp (-mr)` times the unshifted sums over the first `1024·(k + 1)` columns. A row tile's first step starts from
  the reset buffers; after its last step the output block holds the rectified quotient of the full sums.
-/
import proofs.«175535_j12962211299361_2_alg».proof.Proof.Step
import proofs.«175535_j12962211299361_2_alg».proof.Proof.Blocks
import proofs.«175535_j12962211299361_2_alg».proof.Proof.Gen.KernelIdeal.Frame

set_option maxRecDepth 16384

noncomputable section

namespace Cert.KernelInvariant

open Cert.KernelIdeal Cert.KernelIdeal.Gen Cert.KernelPieces Cert.KernelBlocks Cert.KernelStep Idealize.ShloMosaic Idealize.ShloMosaic.TcCoe Idealize.ShloMosaic.ValueIdx Idealize.SL.Sem

variable (m : (ℓ : Loc nD τ sig) → Buf (Elt Ideal) ℓ) (c : Dev nD)
variable (Lg : Fin 8192 → ℕ → ℝ) (Vl : Fin 128 → ℕ → ℝ)

/-- The unshifted weight total of the first `n` columns of row `i`. -/
def denP (i : Fin 8192) (n : ℕ) : ℝ := ∑ j ∈ Finset.range n, Real.exp (Lg i j)
/-- The unshifted weighted sum of the first `n` columns of row `i` against feature column `d`. -/
def numP (i : Fin 8192) (d : Fin 128) (n : ℕ) : ℝ := ∑ j ∈ Finset.range n, Real.exp (Lg i j) * Vl d j

theorem denP_zero (i : Fin 8192) : denP Lg i (1024 * 0) = 0 := by simp [denP]
theorem numP_zero (i : Fin 8192) (d : Fin 128) : numP Lg Vl i d (1024 * 0) = 0 := by simp [numP]
theorem denP_succ (i : Fin 8192) (k : ℕ) :
    denP Lg i (1024 * (k + 1)) = denP Lg i (1024 * k) + ∑ q : Fin 1024, Real.exp (Lg i (1024 * k + q.val)) :=
  Cert.OnlineSoftmax.prefix_step (fun j => Real.exp (Lg i j)) 1024 k
theorem numP_succ (i : Fin 8192) (d : Fin 128) (k : ℕ) :
    numP Lg Vl i d (1024 * (k + 1)) = numP Lg Vl i d (1024 * k) + ∑ q : Fin 1024, Real.exp (Lg i (1024 * k + q.val)) * Vl d (1024 * k + q.val) :=
  Cert.OnlineSoftmax.prefix_step (fun j => Real.exp (Lg i j) * Vl d j) 1024 k

/-- After step `n` (column tile `n % 8` of its row tile): every row's running maximum is a real `mr`, and its
    denominator and numerators are `exp (-mr)` times the unshifted sums over the columns seen so far. -/
def Inv (n : ℕ) (h : n < cfg0.N) : Prop := ∀ r : Fin 1024, ∃ mr : ℝ,
    (outsAt0 m c n h).2.1 (ix2 r (0 : Fin 1)) = ((mr : ℝ) : EReal)
  ∧ (outsAt0 m c n h).2.2.1 (ix2 r (0 : Fin 1)) = ((Real.exp (-mr) * denP Lg (rowOf ⟨n, h⟩ r) (1024 * (n % 8 + 1)) : ℝ) : EReal)
  ∧ ∀ d : Fin 128, (outsAt0 m c n h).2.2.2 (ix2 r d) = ((Real.exp (-mr) * numP Lg Vl (rowOf ⟨n, h⟩ r) d (1024 * (n % 8 + 1)) : ℝ) : EReal)

variable (hL : ∀ i j : Fin 8192, Cert.Spec.logit ((V m c main_arg0 : Vec Ideal S8192x8192 .f32) (ix2 i j)) = ((Lg i j.val : ℝ) : EReal))
variable (hV : ∀ (j : Fin 8192) (d : Fin 128), (V m c main_v5 : Vec Ideal S8192x128 .bf16) (ix2 j d) = ((Vl d j.val : ℝ) : EReal))

include hL hV in
/-- A row tile's first step establishes the invariant from the reset state. -/
theorem inv_first (t : Fin cfg0.N) (h0 : t.val % 8 = 0) : Inv m c Lg Vl t.val t.isLt := by
  intro r
  have h1 : ¬t.val % 8 = 7 := by omega
  obtain ⟨mn, e0, e1, e2⟩ := step_first (iblk m c 0 t) (View.ld (iblk m c 1 t) (Rect.unit (k0_off1 (grid0.coords t)) S1024x128.size (k0_off1_inb (grid0.coords t))))
    (k0_pay4 (F := Ideal)) (k0_pay5 (F := Ideal)) (k0_pay6 (F := Ideal)) r
    (fun q => Lg (rowOf t r) (colOf t q).val) (fun q d => Vl d (colOf t q).val)
    (fun q => by rw [iblk0_apply, hL]) (fun q d => by rw [tile_apply, hV])
    (Cert.KernelPayload.pay4_apply _) (Cert.KernelPayload.pay5_apply _) (fun d => Cert.KernelPayload.pay6_apply _)
  refine ⟨mn, ?_, ?_, fun d => ?_⟩
  · rw [outsAt0_A m c t h0 h1]; dsimp only
    rw [sA0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)]; exact e0
  · rw [outsAt0_A m c t h0 h1]; dsimp only
    rw [sA1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)]
    refine e1.trans ?_
    rw [denP_succ, show denP Lg (rowOf ⟨t.val, t.isLt⟩ r) (1024 * (t.val % 8)) = 0 from by rw [h0]; exact denP_zero Lg _]
    rfl
  · rw [outsAt0_A m c t h0 h1]; dsimp only
    rw [sA2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)]
    refine (e2 d).trans ?_
    rw [numP_succ, show numP Lg Vl (rowOf ⟨t.val, t.isLt⟩ r) d (1024 * (t.val % 8)) = 0 from by rw [h0]; exact numP_zero Lg Vl _ _]
    rfl

include hL hV in
/-- A later step of a row tile carries the invariant on. -/
theorem inv_later (t : Fin cfg0.N) (h0 : ¬t.val % 8 = 0)
    (ih : Inv m c Lg Vl (t.val - 1) (Nat.lt_of_le_of_lt (Nat.sub_le _ _) t.isLt)) : Inv m c Lg Vl t.val t.isLt := by
  intro r
  obtain ⟨mr, i0, i1, i2⟩ := ih r
  have hrow : rowOf ⟨t.val - 1, Nat.lt_of_le_of_lt (Nat.sub_le _ _) t.isLt⟩ r = rowOf t r := Fin.ext (by
    show 1024 * ((t.val - 1) / 8) + r.val = 1024 * (t.val / 8) + r.val; omega)
  have hk : (t.val - 1) % 8 + 1 = t.val % 8 := by omega
  rw [hrow, hk] at i1 i2
  obtain ⟨mn, e0, e1, e2⟩ := step_later (iblk m c 0 t) (View.ld (iblk m c 1 t) (Rect.unit (k0_off1 (grid0.coords t)) S1024x128.size (k0_off1_inb (grid0.coords t))))
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r
    (fun q => Lg (rowOf t r) (colOf t q).val) (fun q d => Vl d (colOf t q).val)
    (fun q => by rw [iblk0_apply, hL]) (fun q d => by rw [tile_apply, hV])
    mr (denP Lg (rowOf t r) (1024 * (t.val % 8))) (fun d => numP Lg Vl (rowOf t r) d (1024 * (t.val % 8))) i0 i1 i2
  refine ⟨mn, ?_, ?_, fun d => ?_⟩
  · by_cases h1 : t.val % 8 = 7
    · rw [outsAt0_C m c t h0 h1]; dsimp only
      rw [sC0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]; exact e0
    · rw [outsAt0_B m c t h0 h1]; dsimp only
      rw [sB0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]; exact e0
  · by_cases h1 : t.val % 8 = 7
    · rw [outsAt0_C m c t h0 h1]; dsimp only
      rw [sC1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
      refine e1.trans ?_
      rw [denP_succ]; rfl
    · rw [outsAt0_B m c t h0 h1]; dsimp only
      rw [sB1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
      refine e1.trans ?_
      rw [denP_succ]; rfl
  · by_cases h1 : t.val % 8 = 7
    · rw [outsAt0_C m c t h0 h1]; dsimp only
      rw [sC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
      refine (e2 d).trans ?_
      rw [numP_succ]; rfl
    · rw [outsAt0_B m c t h0 h1]; dsimp only
      rw [sB2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
      refine (e2 d).trans ?_
      rw [numP_succ]; rfl

include hL hV in
/-- The invariant holds after every step. -/
theorem inv : ∀ (n : ℕ) (h : n < cfg0.N), Inv m c Lg Vl n h := by
  intro n
  induction n with
  | zero => intro h; exact inv_first m c Lg Vl hL hV ⟨0, h⟩ rfl
  | succ n ih =>
    intro h
    by_cases h0 : (n + 1) % 8 = 0
    · exact inv_first m c Lg Vl hL hV ⟨n + 1, h⟩ h0
    · exact inv_later m c Lg Vl hL hV ⟨n + 1, h⟩ h0 (ih _)

include hL hV in
/-- After a row tile's last step the output block holds the rectified quotient of the full sums. -/
theorem out_last (t : Fin cfg0.N) (h1 : t.val % 8 = 7) (r : Fin 1024) (d : Fin 128) :
    (outsAt0 m c t.val t.isLt).1 (ix2 r d)
      = Cert.Spec.leaky (((numP Lg Vl (rowOf t r) d 8192 / denP Lg (rowOf t r) 8192 : ℝ)) : EReal) := by
  have h0 : ¬t.val % 8 = 0 := by omega
  obtain ⟨mr, _, e1, e2⟩ := inv m c Lg Vl hL hV t.val t.isLt r
  have ho : (outsAt0 m c t.val t.isLt).1 = oNew (outsAt0 m c t.val t.isLt).2.2.2 (outsAt0 m c t.val t.isLt).2.2.1 := by
    rw [outsAt0_C m c t h0 h1]; dsimp only
    rw [oC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sC1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  rw [ho, Cert.KernelPayload.oNew_apply, e1, e2 d, h1]
  have hpos : denP Lg (rowOf t r) (1024 * (7 + 1)) ≠ 0 :=
    ne_of_gt (Finset.sum_pos (fun _ _ => Real.exp_pos _) ⟨0, Finset.mem_range.mpr (by norm_num)⟩)
  rw [Cert.OnlineSoftmax.quot mr _ _ hpos]

end Cert.KernelInvariant

end
-- ==== Proof.LibHostProduct.lean ====
/-
  A plain matrix product computed on the host, read at one entry.

  For a matrix `l` of shape `[M, K]` and a matrix `r` of shape `[K, N]`, contracted over `l`'s second axis and `r`'s first,
  the host's product has no accumulator: its entry `(p, c)` on the extended reals is `∑ k, l[p, k] · r[k, c]`. The
  contraction index has a single axis of extent `K` and is traded for its one coordinate `k`, and the operand indices at
  the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.HostProduct

open Idealize.ShloMosaic Idealize.ShloMosaic.ValueIdx

/-- Entry `(p, c)` of the host's `[M, K]` by `[K, N]` product is `∑ k, l[p, k] · r[k, c]`, for any dimension numbers `D`
    whose contraction has the one axis of extent `K` and whose operand indices read `(p, k)` and `(k, c)`. -/
theorem dotGeneral_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    Host.dotGeneral (F := Ideal) D none l r (ix2 p c) = ∑ k : Fin K, l (ix2 p k) * r (ix2 k c) := by
  show FloatOps.dotGeneral D none .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.HostProduct

end
-- ==== Proof.KernelHost.lean ====
/-
  The projected features the kernel stages: the host computes `X · Wᵀ + b` before the launch (a transpose, a matrix
  product, the bias broadcast along the rows, a sum, a change of float format — the identity on the extended reals),
  so entry `(j, d)` of the staged array is `∑ c, X[j, c] · W[d, c] + b[d]`.
-/
import proofs.«175535_j12962211299361_2_alg».proof.Proof.Gen.KernelIdeal.Frame
import proofs.«175535_j12962211299361_2_alg».proof.Proof.Spec
import proofs.«175535_j12962211299361_2_alg».proof.Proof.LibHostProduct
import proofs.«175535_j12962211299361_2_alg».proof.Proof.LibHostLayout
import Idealize.ShloMosaic.Lib.Pipeline.Value
import Idealize.ShloMosaic.Lib.ValueIdx
import Idealize.ShloMosaic.Lib.ValueLayout
import Idealize.ShloMosaic.Lib.StableHlo.Run

noncomputable section

namespace Cert.KernelHost

open Cert.KernelIdeal Cert.KernelIdeal.Gen Idealize.ShloMosaic Idealize.ShloMosaic.TcCoe Idealize.SL.Sem
open Idealize.ShloMosaic.ValueIdx

/-- The host's projection of the features, as one function of the three arrays. -/
def proj (X : FVec Ideal S8192x128 .f32) (W : FVec Ideal S128x128 .f32) (b : FVec Ideal S128 .f32) : FVec Ideal S8192x128 .bf16 :=
  truncf .bf16 (addf (Host.dotGeneral (F := Ideal) dot_S8192x128_S128x128_S8192x128_1_0_0_1_n_n none X
      (transpose S128x128 [1, 0] W transposes_S128x128_S128x128_1_0))
    (broadcastInDim S8192x128 ![0, 1] bcast_S1x128_S8192x128_0_1 (broadcastInDim S1x128 ![1] bcast_S128_S1x128_1 b))) bitsLt_bf16_f32

variable (m : (ℓ : Loc nD τ sig) → Buf (Elt Ideal) ℓ) (c : Dev nD)

/-- The staged array, as the kernel's launch finds it, is the projection of the argument arrays. -/
theorem v5_eq : (V m c main_v5 : FVec Ideal S8192x128 .bf16)
    = proj (m ((c : Thread nD τ).loc main_arg1)) (m ((c : Thread nD τ).loc main_arg2)) (m ((c : Thread nD τ).loc main_arg3)) := by
  dsimp only [Gen.V, Gen.hostOps0]; after_results; rfl

/-- Entry `(j, d)` of the projection. -/
theorem proj_apply (X : FVec Ideal S8192x128 .f32) (W : FVec Ideal S128x128 .f32) (b : FVec Ideal S128 .f32) (j : Fin 8192) (d : Fin 128) :
    proj X W b (ix2 j d) = Cert.Spec.xw X W b j d := by
  unfold proj Cert.Spec.xw
  show Host.dotGeneral (F := Ideal) dot_S8192x128_S128x128_S8192x128_1_0_0_1_n_n none X (transpose S128x128 [1, 0] W transposes_S128x128_S128x128_1_0) (ix2 j d)
      + broadcastInDim S8192x128 ![0, 1] bcast_S1x128_S8192x128_0_1 (broadcastInDim S1x128 ![1] bcast_S128_S1x128_1 b) (ix2 j d) = _
  rw [Cert.HostProduct.dotGeneral_entry dot_S8192x128_S128x128_S8192x128_1_0_0_1_n_n rfl rfl (fun _ _ => rfl) (fun _ _ => rfl) (fun _ _ => rfl) (fun _ _ => rfl),
    Cert.HostLayout.broadcastInDim_1b_ab_apply, Cert.HostLayout.broadcastInDim_b_1b_apply]
  congr 1
  refine Finset.sum_congr rfl fun k _ => ?_
  rw [transpose_ix2_apply]

end Cert.KernelHost

end
-- ==== Proof.SpecFacts.lean ====
/-
  The specification's logits and mapped features are real numbers when the inputs are finite.

  A finite extended real is the inclusion of its real part. The masked logit of a finite entry is the entry or the
  entry minus the (finite) offset, a real number either way; an entry of X · Wᵀ + b is a finite sum of products of
  real numbers plus a real number. The offset's word denotes a real number.
-/
import proofs.«175535_j12962211299361_2_alg».proof.Proof.Spec
import proofs.«175535_j12962211299361_2_alg».proof.Proof.OnlineSoftmax
import Idealize.ShloMosaic.Lib.ValueIdx

noncomputable section

namespace Cert.Spec

open Idealize.ShloMosaic Idealize.ShloMosaic.ValueIdx

/-- A finite extended real is the inclusion of its real part. -/
theorem coe_toReal_of_finite {x : EReal} (h : x ≠ ⊤ ∧ x ≠ ⊥) : x = ((x.toReal : ℝ) : EReal) :=
  (EReal.coe_toReal h.1 h.2).symm

/-- The logit of a finite entry is a real number: the entry, or the entry minus the offset. -/
theorem logit_real {a : EReal} (ha : a ≠ ⊤ ∧ a ≠ ⊥) (hbig : big ≠ ⊤ ∧ big ≠ ⊥) :
    logit a = (((logit a).toReal : ℝ) : EReal) := by
  obtain ⟨ra, rfl⟩ : ∃ r : ℝ, (r : EReal) = a := ⟨_, EReal.coe_toReal ha.1 ha.2⟩
  obtain ⟨rb, hrb⟩ : ∃ r : ℝ, (r : EReal) = big := ⟨_, EReal.coe_toReal hbig.1 hbig.2⟩
  unfold logit
  rw [← hrb]
  split_ifs
  · rw [← EReal.coe_sub, EReal.toReal_coe]
  · rw [EReal.toReal_coe]

/-- The logits of a finite adjacency matrix are the real logits of the specification. -/
theorem logit_eq_lg (A : (⟨2, ![8192, 8192]⟩ : Shape).Idx → EReal) (hA : Finite A) (hbig : big ≠ ⊤ ∧ big ≠ ⊥) (i j : Fin 8192) :
    logit (A (ix2 i j)) = ((lg A i j.val : ℝ) : EReal) := by
  unfold lg
  rw [dif_pos j.isLt]
  exact logit_real (hA _) hbig

/-- An entry of X · Wᵀ + b over finite inputs is a real number: the sum of the products of the real parts plus the
    bias's real part. -/
theorem xw_real (X : (⟨2, ![8192, 128]⟩ : Shape).Idx → EReal) (W : (⟨2, ![128, 128]⟩ : Shape).Idx → EReal) (b : (⟨1, ![128]⟩ : Shape).Idx → EReal)
    (hX : Finite X) (hW : Finite W) (hb : Finite b) (j : Fin 8192) (d : Fin 128) :
    xw X W b j d
      = (((∑ c : Fin 128, (X (ix2 j c)).toReal * (W (ix2 d c)).toReal) + (b (ix1 d)).toReal : ℝ) : EReal) := by
  unfold xw
  rw [EReal.coe_add, Cert.OnlineSoftmax.coe_sum, ← coe_toReal_of_finite (hb _)]
  congr 1
  refine Finset.sum_congr rfl fun c _ => ?_
  rw [EReal.coe_mul, ← coe_toReal_of_finite (hX _), ← coe_toReal_of_finite (hW _)]

/-- The mapped features over finite inputs are the real ones of the specification. -/
theorem xw_eq_vl (X : (⟨2, ![8192, 128]⟩ : Shape).Idx → EReal) (W : (⟨2, ![128, 128]⟩ : Shape).Idx → EReal) (b : (⟨1, ![128]⟩ : Shape).Idx → EReal)
    (hX : Finite X) (hW : Finite W) (hb : Finite b) (j : Fin 8192) (d : Fin 128) :
    xw X W b j d = ((vl X W b d j.val : ℝ) : EReal) := by
  unfold vl
  rw [dif_pos j.isLt]
  show xw X W b j d = (((xw X W b j d).toReal : ℝ) : EReal)
  rw [xw_real X W b hX hW hb j d, EReal.toReal_coe]

/-- The offset's word denotes a real number. -/
theorem big_finite : big ≠ ⊤ ∧ big ≠ ⊥ := by
  have h : ∃ r : ℝ, big = (r : EReal) := by
    unfold big
    simp [Ideal.ofBits, Ideal.ieee, -EReal.coe_mul]
  obtain ⟨r, hr⟩ := h
  rw [hr]
  exact ⟨EReal.coe_ne_top r, EReal.coe_ne_bot r⟩

end Cert.Spec

end
-- ==== Proof.KernelValue.lean ====
/-
  The kernel's result array as one function of its inputs. Each row tile's output block is written back once, after
  the row tile's last step, and those eight blocks tile the array; with the invariant of the carried buffers this
  makes the array the rectified softmax-weighted average, entry by entry.
-/
import proofs.«175535_j12962211299361_2_alg».proof.Proof.Invariant
import proofs.«175535_j12962211299361_2_alg».proof.Proof.KernelHost
import proofs.«175535_j12962211299361_2_alg».proof.Proof.SpecFacts
import proofs.«175535_j12962211299361_2_alg».proof.Proof.Gen.KernelIdeal.Value

set_option maxRecDepth 16384

noncomputable section

namespace Cert.KernelValue

open Cert.KernelIdeal Cert.KernelIdeal.Gen Cert.KernelPieces Cert.KernelBlocks Cert.KernelInvariant Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)
variable (Lg : Fin 8192 → ℕ → ℝ) (Vl : Fin 128 → ℕ → ℝ)

/-- Entry `(i, d)` of the result: the rectified quotient of row `i`'s full sums. -/
def entry (i : Fin 8192) (d : Fin 128) : EReal :=
  Cert.Spec.leaky (((numP Lg Vl i d 8192 / denP Lg i 8192 : ℝ)) : EReal)

/-- The result array. -/
def result : S8192x128.Idx → EReal := fun y => entry Lg Vl (y 0) (y 1)

variable (hL : ∀ i j : Fin 8192, Cert.Spec.logit ((V m c main_arg0 : Vec Ideal S8192x8192 .f32) (ix2 i j)) = ((Lg i j.val : ℝ) : EReal))
variable (hV : ∀ (j : Fin 8192) (d : Fin 128), (V m c main_v5 : Vec Ideal S8192x128 .bf16) (ix2 j d) = ((Vl d j.val : ℝ) : EReal))

include hL hV in
/-- What a row tile's last step writes back is that row tile's block of the result. -/
theorem flushed_eq (t : Fin cfg0.N) (hf : (cfg0.win 2).flush t = true) :
    (dats m 0 c).flushed 2 t = ((cfg0.win 2).blk t).view.read (Elt Ideal) (result Lg Vl) := by
  have h1 := (flush_facts t).mp hf
  rw [Cert.KernelIdeal.Value.flushed2]
  funext j
  show (outsAt0 m c t.val t.isLt).1 j = result Lg Vl (((cfg0.win 2).blk t).view.emb j)
  have hr : (j 0).val < 1024 := (j 0).isLt
  have hd : (j 1).val < 128 := (j 1).isLt
  have hj : j = ix2 (⟨(j 0).val, hr⟩ : Fin 1024) (⟨(j 1).val, hd⟩ : Fin 128) :=
    funext fun a => Fin.ext (by match a with | ⟨0, _⟩ => rfl | ⟨1, _⟩ => rfl)
  refine (congrArg (outsAt0 m c t.val t.isLt).1 hj).trans ((out_last m c Lg Vl hL hV t h1 ⟨(j 0).val, hr⟩ ⟨(j 1).val, hd⟩).trans ?_)
  show entry Lg Vl (rowOf t ⟨(j 0).val, hr⟩) ⟨(j 1).val, hd⟩ = entry Lg Vl ((((cfg0.win 2).blk t).view.emb j) 0) ((((cfg0.win 2).blk t).view.emb j) 1)
  congr 1 <;> apply Fin.ext
  · show 1024 * (t.val / 8) + (j 0).val = win0_2.index t 0 * 1024 + 1 * (j 0).val
    rw [(idx_facts t).2.2.1]; omega
  · show (j 1).val = win0_2.index t 1 * 128 + 1 * (j 1).val
    rw [(idx_facts t).2.2.2.1]; omega

/-- Every entry of the result array lies in the block some row tile's last step writes back. -/
theorem cover (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 64 := N64
  let t : Fin cfg0.N := ⟨8 * ((i 0).val / 1024) + 7, by rw [hN]; omega⟩
  have htv : t.val = 8 * ((i 0).val / 1024) + 7 := rfl
  refine ⟨t, (flush_facts t).mpr (by rw [htv]; omega), ?_⟩
  show i ∈ ((View.whole main_v6).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(idx_facts t).2.2.1, htv]
    omega
  | ⟨1, _⟩ =>
    show win0_2.index t 1 * 128 ≤ (i 1).val ∧ (i 1).val < win0_2.index t 1 * 128 + 128
    rw [(idx_facts t).2.2.2.1]
    omega

include hL hV in
/-- The output array after the run is the result array. -/
theorem final : (dats m 0 c).arrAt 2 cfg0.N = result Lg Vl :=
  (dats m 0 c).arrAt_eq_of_cover 2 (result Lg Vl) (flushed_eq m c Lg Vl hL hV) (cover)

/-- With the real logits and the real projected features of finite inputs, the result array is the specification. -/
theorem result_eq_G (A : (⟨2, ![8192, 8192]⟩ : Shape).Idx → EReal) (X : (⟨2, ![8192, 128]⟩ : Shape).Idx → EReal)
    (W : (⟨2, ![128, 128]⟩ : Shape).Idx → EReal) (b : (⟨1, ![128]⟩ : Shape).Idx → EReal) :
    result (Cert.Spec.lg A) (Cert.Spec.vl X W b) = Cert.Spec.G A X W b := rfl

/-- The kernel's run: from finite inputs, every weakly fair execution ends with the output array at the
    specification of the argument arrays, the arguments unchanged. -/
theorem run (ρ : Dev nD → PrngReg)
    (hfin : ∀ c : Dev nD, Cert.Spec.Finite (m ((c : Thread nD τ).loc main_arg0)) ∧ Cert.Spec.Finite (m ((c : Thread nD τ).loc main_arg1))
      ∧ Cert.Spec.Finite (m ((c : Thread nD τ).loc main_arg2)) ∧ Cert.Spec.Finite (m ((c : Thread nD τ).loc main_arg3))) :
    θ_run defs (onTc (τ := τ) (main (F := Ideal))) ⟨m, fun _ => 0, ρ⟩ fun r => ∀ c : Dev nD,
      r.2.mem ((c : Thread nD τ).loc main_v6) = Cert.Spec.G (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c (Cert.Spec.lg (m ((c : Thread nD τ).loc main_arg0)))
        (Cert.Spec.vl (m ((c : Thread nD τ).loc main_arg1)) (m ((c : Thread nD τ).loc main_arg2)) (m ((c : Thread nD τ).loc main_arg3)))
        (fun i j => by rw [V_main_arg0]; exact Cert.Spec.logit_eq_lg _ (hfin c).1 Cert.Spec.big_finite i j)
        (fun j d => by rw [Cert.KernelHost.v5_eq, Cert.KernelHost.proj_apply]; exact Cert.Spec.xw_eq_vl _ _ _ (hfin c).2.1 (hfin c).2.2.1 (hfin c).2.2.2 j d)).trans
        (result_eq_G _ _ _ _)), (h c).2⟩)
    (Cert.KernelIdeal.Value.run_blocks m ρ)

end Cert.KernelValue

end
-- ==== Proof.RefRun.lean ====
/-
  The reference program's run, written out.

  @main of the reference is a straight line of host operations: twenty-nine of its own, then the call of the leaky
  rectifier, whose body is six operations and a call of the selection function (one more). With the callees' bodies
  placed at their call sites the program is a list of thirty-six operations, and every weakly fair execution ends with
  each buffer at the list's fold over the initial contents. Read at the result buffer, the fold is the composition
  `refOut` of the operations' functions applied to the four argument arrays; the argument buffers are written by no
  operation and keep their contents.

  `refOut` is stated in stages, one definition per quantity the program names: the masked logits, the row maxima, the
  shifted exponentials, the row sums, the normalized weights, the affine map of the features, the weighted average and
  the rectifier.
-/
import proofs.«175535_j12962211299361_2_alg».proof.Defs
import proofs.«175535_j12962211299361_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

/-! ## The composed term, in stages -/

/-- The masked logits: every adjacency entry at or below the threshold is lowered by the offset
    (the comparison's bit, read as 0 or 1, times the offset, subtracted). -/
def logits (A : FVec Ideal S8192x8192 .f32) : FVec Ideal S8192x8192 .f32 :=
  subf A
    (mulf (broadcastInDim S8192x8192 ![] bcast_S_S8192x8192 (constant (F := Ideal) S_ .f32 0x4E6E6B28#32))
      (uitofp .f32 (cmpf .ole A (broadcastInDim S8192x8192 ![] bcast_S_S8192x8192 (constant (F := Ideal) S_ .f32 0x3F4CCCCD#32)))))

/-- The row maxima of an array: the maximum-reduction along the columns from -∞, joined once more with -∞. -/
def rowMax (L : FVec Ideal S8192x8192 .f32) : FVec Ideal S8192 .f32 :=
  maximumf (broadcastInDim S8192 ![] bcast_S_S8192 (constant (F := Ideal) S_ .f32 0xFF800000#32))
    (Host.reduce (FloatOps.maximumf (F := Ideal) (φ := .f32)) L (constant (F := Ideal) S_ .f32 0xFF800000#32) reducesTo_S8192x8192_S8192_d1 h_S_)

/-- A per-row quantity placed along the rows of a square array. -/
def alongRows (v : FVec Ideal S8192 .f32) : FVec Ideal S8192x8192 .f32 :=
  broadcastInDim S8192x8192 ![0, 1] bcast_S8192x1_S8192x8192_0_1 (broadcastInDim S8192x1 ![0] bcast_S8192_S8192x1_0 v)

/-- The exponentials of the logits shifted by their row's maximum. -/
def expShift (L : FVec Ideal S8192x8192 .f32) : FVec Ideal S8192x8192 .f32 :=
  Host.exp (F := Ideal) (subf L (alongRows (rowMax L)))

/-- The row sums of an array: the add-reduction along the columns from 0. -/
def rowSum (E : FVec Ideal S8192x8192 .f32) : FVec Ideal S8192 .f32 :=
  Host.reduceAdd (F := Ideal) E (constant (F := Ideal) S_ .f32 0x00000000#32) reducesTo_S8192x8192_S8192_d1 h_S_

/-- The softmax weights of the logits: each shifted exponential over its row's sum. -/
def weights (L : FVec Ideal S8192x8192 .f32) : FVec Ideal S8192x8192 .f32 :=
  Host.divf (F := Ideal) (expShift L) (alongRows (rowSum (expShift L)))

/-- The affine map of the features: the product with the transposed weight matrix, plus the bias along the columns. -/
def affine (X : FVec Ideal S8192x128 .f32) (W : FVec Ideal S128x128 .f32)
    (b : FVec Ideal S128 .f32) : FVec Ideal S8192x128 .f32 :=
  addf (Host.dotGeneral (F := Ideal) dot_S8192x128_S128x128_S8192x128_1_0_0_1_n_n none X (transpose S128x128 [1, 0] W transposes_S128x128_S128x128_1_0))
    (broadcastInDim S8192x128 ![0, 1] bcast_S1x128_S8192x128_0_1 (broadcastInDim S1x128 ![1] bcast_S128_S1x128_1 b))

/-- The weighted average: the product of the softmax weights with the mapped features. -/
def average (A : FVec Ideal S8192x8192 .f32) (X : FVec Ideal S8192x128 .f32)
    (W : FVec Ideal S128x128 .f32) (b : FVec Ideal S128 .f32) :
    FVec Ideal S8192x128 .f32 :=
  Host.dotGeneral (F := Ideal) dot_S8192x8192_S8192x128_S8192x128_1_0_0_1_n_n none (weights (logits A)) (affine X W b)

/-- The leaky rectifier of an array: where an entry is at least 0 the entry, elsewhere the slope times the entry. -/
def rectify (Z : FVec Ideal S8192x128 .f32) : FVec Ideal S8192x128 .f32 :=
  select (cmpf .oge Z (broadcastInDim S8192x128 ![] bcast_S_S8192x128 (constant (F := Ideal) S_ .f32 0x00000000#32))) Z
    (mulf (broadcastInDim S8192x128 ![] bcast_S_S8192x128 (id (constant (F := Ideal) S_ .f32 0x3C23D70A#32))) Z)

/-- What the reference computes from its four arguments. -/
def refOut (A : FVec Ideal S8192x8192 .f32) (X : FVec Ideal S8192x128 .f32)
    (W : FVec Ideal S128x128 .f32) (b : FVec Ideal S128 .f32) :
    FVec Ideal S8192x128 .f32 :=
  rectify (average A X W b)

/-! ## The program as a list of operations -/

section

variable {F : FTy → Type} [FloatOps F]

/-- @main's operations in order, the two calls unfolded: its own twenty-nine, then the rectifier's six over the
    call's buffers (the zero, its broadcast, the comparison, the slope converted to its own type, its broadcast,
    the product) and the selection's one. -/
abbrev ops : List (HloOp τ sig (Elt F)) :=
  [ nullary main_cst (constant S_ .f32 0x3F4CCCCD#32),
    unary main_cst main_v0 (broadcastInDim S8192x8192 ![] bcast_S_S8192x8192 : (⟨S_, .f32⟩ : BufTy).Contents (Elt F) → (⟨S8192x8192, .f32⟩ : BufTy).Contents (Elt F)),
    binary main_arg0 main_v0 main_v1 (cmpf .ole : (⟨S8192x8192, .f32⟩ : BufTy).Contents (Elt F) → (⟨S8192x8192, .f32⟩ : BufTy).Contents (Elt F) → (⟨S8192x8192, .i1⟩ : BufTy).Contents (Elt F)),
    unary main_v1 main_v2 (uitofp .f32 : (⟨S8192x8192, .i1⟩ : BufTy).Contents (Elt F) → (⟨S8192x8192, .f32⟩ : BufTy).Contents (Elt F)),
    nullary main_cst_0 (constant S_ .f32 0x4E6E6B28#32),
    unary main_cst_0 main_v3 (broadcastInDim S8192x8192 ![] bcast_S_S8192x8192 : (⟨S_, .f32⟩ : BufTy).Contents (Elt F) → (⟨S8192x8192, .f32⟩ : BufTy).Contents (Elt F)),
    binary main_v3 main_v2 main_v4 (mulf : (⟨S8192x8192, .f32⟩ : BufTy).Contents (Elt F) → (⟨S8192x8192, .f32⟩ : BufTy).Contents (Elt F) → (⟨S8192x8192, .f32⟩ : BufTy).Contents (Elt F)),
    binary main_arg0 main_v4 main_v5 (subf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0xFF800000#32),
    binary main_v5 main_cst_1 main_v6 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v7 (broadcastInDim S8192 ![] bcast_S_S8192 : (⟨S_, .f32⟩ : BufTy).Contents (Elt F) → (⟨S8192, .f32⟩ : BufTy).Contents (Elt F)),
    binary main_v7 main_v6 main_v8 (maximumf : (⟨S8192, .f32⟩ : BufTy).Contents (Elt F) → (⟨S8192, .f32⟩ : BufTy).Contents (Elt F) → (⟨S8192, .f32⟩ : BufTy).Contents (Elt F)),
    unary main_v8 main_v9 (broadcastInDim S8192x1 ![0] bcast_S8192_S8192x1_0 : (⟨S8192, .f32⟩ : BufTy).Contents (Elt F) → (⟨S8192x1, .f32⟩ : BufTy).Contents (Elt F)),
    unary main_v9 main_v10 (broadcastInDim S8192x8192 ![0, 1] bcast_S8192x1_S8192x8192_0_1 : (⟨S8192x1, .f32⟩ : BufTy).Contents (Elt F) → (⟨S8192x8192, .f32⟩ : BufTy).Contents (Elt F)),
    binary main_v5 main_v10 main_v11 (subf : (⟨S8192x8192, .f32⟩ : BufTy).Contents (Elt F) → (⟨S8192x8192, .f32⟩ : BufTy).Contents (Elt F) → (⟨S8192x8192, .f32⟩ : BufTy).Contents (Elt F)),
    unary main_v11 main_v12 (Host.exp : (⟨S8192x8192, .f32⟩ : BufTy).Contents (Elt F) → (⟨S8192x8192, .f32⟩ : BufTy).Contents (Elt F)),
    nullary main_cst_3 (constant S_ .f32 0x00000000#32),
    binary main_v12 main_cst_3 main_v13 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v13 main_v14 (broadcastInDim S8192x1 ![0] bcast_S8192_S8192x1_0 : (⟨S8192, .f32⟩ : BufTy).Contents (Elt F) → (⟨S8192x1, .f32⟩ : BufTy).Contents (Elt F)),
    unary main_v14 main_v15 (broadcastInDim S8192x8192 ![0, 1] bcast_S8192x1_S8192x8192_0_1 : (⟨S8192x1, .f32⟩ : BufTy).Contents (Elt F) → (⟨S8192x8192, .f32⟩ : BufTy).Contents (Elt F)),
    binary main_v12 main_v15 main_v16 (Host.divf : (⟨S8192x8192, .f32⟩ : BufTy).Contents (Elt F) → (⟨S8192x8192, .f32⟩ : BufTy).Contents (Elt F) → (⟨S8192x8192, .f32⟩ : BufTy).Contents (Elt F)),
    unary main_arg2 main_v17 ((transpose S128x128 [1, 0] · transposes_S128x128_S128x128_1_0) : (⟨S128x128, .f32⟩ : BufTy).Contents (Elt F) → (⟨S128x128, .f32⟩ : BufTy).Contents (Elt F)),
    binary main_arg1 main_v17 main_v18 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg3 main_v19 (broadcastInDim S1x128 ![1] bcast_S128_S1x128_1 : (⟨S128, .f32⟩ : BufTy).Contents (Elt F) → (⟨S1x128, .f32⟩ : BufTy).Contents (Elt F)),
    unary main_v19 main_v20 (broadcastInDim S8192x128 ![0, 1] bcast_S1x128_S8192x128_0_1 : (⟨S1x128, .f32⟩ : BufTy).Contents (Elt F) → (⟨S8192x128, .f32⟩ : BufTy).Contents (Elt F)),
    binary main_v18 main_v20 main_v21 (addf : (⟨S8192x128, .f32⟩ : BufTy).Contents (Elt F) → (⟨S8192x128, .f32⟩ : BufTy).Contents (Elt F) → (⟨S8192x128, .f32⟩ : BufTy).Contents (Elt F)),
    binary main_v16 main_v21 main_v22 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    nullary main_cst_4 (constant S_ .f32 0x3C23D70A#32),
    TRef.nullary main_call0.cst (constant S_ .f32 0x00000000#32),
    TRef.unary main_call0.cst main_call0.v0 (broadcastInDim S8192x128 ![] bcast_S_S8192x128),
    TRef.binary (.of main_v22) main_call0.v0 main_call0.v1 (cmpf .oge),
    TRef.unary (.of main_cst_4) main_call0.v2 id,
    TRef.unary main_call0.v2 main_call0.v3 (broadcastInDim S8192x128 ![] bcast_S_S8192x128),
    TRef.binary main_call0.v3 (.of main_v22) main_call0.v4 mulf,
    TRef.ternary main_call0.v1 (.of main_v22) main_call0.v4 main_call0.call0.v0 select ]

-- thirty-six binds re-associated: the rewrite under the chain recurses once per statement
set_option maxRecDepth 1024 in
/-- @main is that straight line: the callees' definitions unfolded at their calls, both sides are one chain of
    steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., unary_bufs_sub .., binary_bufs_sub ..,
    unary_bufs_sub .., unary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub ..⟩

end

/-- The fold read at the result buffer is `refOut` of the arguments' contents. -/
theorem out_eq (V : Valuation τ sig (Elt Ideal)) :
    after (ops (F := Ideal)) V (main_v23 : DevRef τ sig)
      = refOut (V (main_arg0 : DevRef τ sig)) (V (main_arg1 : DevRef τ sig)) (V (main_arg2 : DevRef τ sig))
          (V (main_arg3 : DevRef τ sig)) := by
  after_results_simp
  rfl

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

theorem arg3_eq (V : Valuation τ sig (Elt Ideal)) :
    after (ops (F := Ideal)) V (main_arg3 : DevRef τ sig) = V (main_arg3 : DevRef τ sig) := by
  after_results_simp

/-- On every device, from any memory with zero counters: every weakly fair execution of @main terminates with the
    result buffer at `refOut` of the arguments' initial contents and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v23)
        = refOut (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c main_v23).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops (F := Ideal)) main_eq (fun _ => ops_sub) m ρ)

end Cert.RefRun

end
-- ==== Proof.RefValue.lean ====
/-
  The array the reference computes is the specification, entry by entry.

  Each stage of the reference's composed term is read at one entry: the masked logit of an adjacency entry is the
  specification's logit; a row's maximum is some real number (all that is used of it: the shift cancels); the shifted
  exponentials, their row sum and the quotient are the softmax weights of the row; the affine map of the features is
  the specification's; the product of the weights with it is a finite sum over the row; and the rectifier is the
  specification's. Under finiteness of the inputs the logits and the mapped features are real numbers, and the
  softmax-weighted sum with any real shift is the quotient of the two unshifted sums.
-/
import proofs.«175535_j12962211299361_2_alg».proof.Proof.RefRun
import proofs.«175535_j12962211299361_2_alg».proof.Proof.Spec
import proofs.«175535_j12962211299361_2_alg».proof.Proof.SpecFacts
import proofs.«175535_j12962211299361_2_alg».proof.Proof.LibHostLayout
import proofs.«175535_j12962211299361_2_alg».proof.Proof.LibHostProduct
import proofs.«175535_j12962211299361_2_alg».proof.Proof.OnlineSoftmax
import Idealize.ShloMosaic.PureOps.Ideal.Laws
import Idealize.ShloMosaic.Lib.ValueIdx
import Idealize.ShloMosaic.Lib.Pipeline.Value

noncomputable section

namespace Cert.RefValue

open Cert.RefRun Cert.ReferenceIdeal Cert.ReferenceIdeal.Gen Idealize.ShloMosaic Idealize.ShloMosaic.ValueIdx

/-! ## Words -/

/-- The word of the maximum-reduction's initial value is -∞. -/
theorem ofBits_neg_inf : Ideal.ofBits .f32 0xFF800000#32 = ⊥ := by simp [Ideal.ofBits, Ideal.ieee]

/-! ## The masked logits -/

/-- The offset times the comparison's bit read as a number: the offset where the entry is at or below the
    threshold, zero elsewhere. -/
theorem mask_term (a : EReal) :
    Ideal.ofBits .f32 0x4E6E6B28#32 * (((Ideal.cmp .ole a (Ideal.ofBits .f32 0x3F4CCCCD#32)).toNat : ℝ) : EReal)
      = if a ≤ Spec.thr then Spec.big else 0 := by
  unfold Spec.thr Spec.big
  by_cases h : a ≤ Ideal.ofBits .f32 0x3F4CCCCD#32
  · rw [if_pos h]; simp [Ideal.cmp, h]
  · rw [if_neg h]; simp [Ideal.cmp, h]

theorem logits_apply (A : FVec Ideal S8192x8192 .f32) (i j : Fin 8192) :
    logits A (ix2 i j) = Spec.logit (A (ix2 i j)) := by
  show A (ix2 i j) - Ideal.ofBits .f32 0x4E6E6B28#32
      * (((Ideal.cmp .ole (A (ix2 i j)) (Ideal.ofBits .f32 0x3F4CCCCD#32)).toNat : ℝ) : EReal) = _
  rw [mask_term]
  unfold Spec.logit
  split_ifs
  · rfl
  · exact sub_zero _

/-! ## Rows: the reductions' inserted index, the row broadcast -/

/-- The reduced index `i` with column `k` inserted is `(i, k)`. -/
theorem lift_eq_ix2 (h : S8192x8192.Reduces [1] S8192) (i k : Fin 8192) : h.lift (ix1 i) k = ix2 i k :=
  funext fun a => Fin.ext (by
    match a with
    | ⟨0, _⟩ => rfl
    | ⟨1, _⟩ => rfl)

theorem alongRows_apply (v : FVec Ideal S8192 .f32) (i j : Fin 8192) : alongRows v (ix2 i j) = v (ix1 i) :=
  (Cert.HostLayout.broadcastInDim_a1_ab_apply _ bcast_S8192x1_S8192x8192_0_1 i j).trans
    (Cert.HostLayout.broadcastInDim_a_a1_apply v bcast_S8192_S8192x1_0 i 0)

/-- A row's maximum is a real number when the row's entries are. -/
theorem rowMax_real (L : FVec Ideal S8192x8192 .f32) (i : Fin 8192) (g : Fin 8192 → ℝ)
    (hg : ∀ j, L (ix2 i j) = (g j : EReal)) : ∃ r : ℝ, rowMax L (ix1 i) = (r : EReal) := by
  have h : S8192x8192.Reduces [1] S8192 := by decide
  obtain ⟨r, hr⟩ := Cert.OnlineSoftmax.fold_max_real (T := 8192) (by decide) g
  refine ⟨r, ?_⟩
  unfold rowMax
  rw [maximumf_apply, Cert.HostLayout.broadcastInDim_scalar_apply, constant_apply, ofBits_neg_inf,
    Host.reduce_eq_fold_single (FloatOps.maximumf (F := Ideal) (φ := .f32)) L _ reducesTo_S8192x8192_S8192_d1 h h_S_ (ix1 i)]
  have hfun : (L ∘ h.lift (ix1 i)) = fun q : Fin 8192 => (g q : EReal) := by
    funext k
    exact (congrArg L (lift_eq_ix2 h i k)).trans (hg k)
  rw [hfun, constant_apply, ofBits_neg_inf]
  exact (congrArg (max ⊥) hr).trans (Cert.OnlineSoftmax.max_bot_coe r)

/-! ## The softmax weights -/

theorem expShift_apply (L : FVec Ideal S8192x8192 .f32) (i j : Fin 8192) :
    expShift L (ix2 i j) = Ideal.exp (L (ix2 i j) - rowMax L (ix1 i)) := by
  show Ideal.exp (L (ix2 i j) - alongRows (rowMax L) (ix2 i j)) = _
  rw [alongRows_apply]

theorem rowSum_apply (E : FVec Ideal S8192x8192 .f32) (i : Fin 8192) :
    rowSum E (ix1 i) = 0 + ∑ j : Fin 8192, E (ix2 i j) := by
  have h : S8192x8192.Reduces [1] S8192 := by decide
  show Ideal.hostReduceAdd reducesTo_S8192x8192_S8192_d1 E (Ideal.ofBits .f32 0x00000000#32) (ix1 i) = _
  rw [Ideal.hostReduceAdd_single reducesTo_S8192x8192_S8192_d1 h, Ideal.ofBits_zero_f32]
  exact congrArg (0 + ·) (Finset.sum_congr rfl fun k _ => congrArg E (lift_eq_ix2 h i k))

theorem weights_apply (L : FVec Ideal S8192x8192 .f32) (i j : Fin 8192) :
    weights L (ix2 i j) = Ideal.div (expShift L (ix2 i j)) (rowSum (expShift L) (ix1 i)) := by
  show Ideal.div (expShift L (ix2 i j)) (alongRows (rowSum (expShift L)) (ix2 i j)) = _
  rw [alongRows_apply]

/-- The weights of a row of real logits, with the row's maximum a real number. -/
theorem weights_real (L : FVec Ideal S8192x8192 .f32) (i : Fin 8192) (g : Fin 8192 → ℝ) (r : ℝ)
    (hg : ∀ j, L (ix2 i j) = (g j : EReal)) (hr : rowMax L (ix1 i) = (r : EReal)) (j : Fin 8192) :
    weights L (ix2 i j)
      = Ideal.div (Ideal.exp ((g j : EReal) - (r : EReal))) (0 + ∑ j' : Fin 8192, Ideal.exp ((g j' : EReal) - (r : EReal))) := by
  rw [weights_apply, rowSum_apply, expShift_apply, hg, hr]
  refine congrArg (fun s => Ideal.div _ (0 + s)) (Finset.sum_congr rfl fun j' _ => ?_)
  rw [expShift_apply, hg, hr]

/-! ## The affine map of the features -/

theorem affine_apply (X : FVec Ideal S8192x128 .f32) (W : FVec Ideal S128x128 .f32) (b : FVec Ideal S128 .f32)
    (j : Fin 8192) (d : Fin 128) : affine X W b (ix2 j d) = Spec.xw X W b j d := by
  unfold affine Spec.xw
  rw [addf_apply,
    Cert.HostProduct.dotGeneral_entry dot_S8192x128_S128x128_S8192x128_1_0_0_1_n_n rfl rfl
      (fun _ _ => rfl) (fun _ _ => rfl) (fun _ _ => rfl) (fun _ _ => rfl)]
  refine congrArg₂ (· + ·) (Finset.sum_congr rfl fun c _ => ?_) ?_
  · rw [transpose_apply [1, 0] W transposes_S128x128_S128x128_1_0 (ix2 c d) (ix2 d c) (fun a => by
      match a with
      | ⟨0, _⟩ => rfl
      | ⟨1, _⟩ => rfl)]
  · exact (Cert.HostLayout.broadcastInDim_1b_ab_apply _ bcast_S1x128_S8192x128_0_1 j d).trans
      (Cert.HostLayout.broadcastInDim_b_1b_apply b bcast_S128_S1x128_1 0 d)

/-! ## The weighted average and the rectifier -/

theorem average_apply (A : FVec Ideal S8192x8192 .f32) (X : FVec Ideal S8192x128 .f32) (W : FVec Ideal S128x128 .f32)
    (b : FVec Ideal S128 .f32) (i : Fin 8192) (d : Fin 128) :
    average A X W b (ix2 i d) = ∑ j : Fin 8192, weights (logits A) (ix2 i j) * affine X W b (ix2 j d) := by
  unfold average
  exact Cert.HostProduct.dotGeneral_entry dot_S8192x8192_S8192x128_S8192x128_1_0_0_1_n_n rfl rfl
    (fun _ _ => rfl) (fun _ _ => rfl) (fun _ _ => rfl) (fun _ _ => rfl) _ _ i d

theorem rectify_apply (Z : FVec Ideal S8192x128 .f32) (i : Fin 8192) (d : Fin 128) :
    rectify Z (ix2 i d) = Spec.leaky (Z (ix2 i d)) := by
  show Scalar.select (Ideal.cmp .oge (Z (ix2 i d)) (Ideal.ofBits .f32 0x00000000#32)) (Z (ix2 i d))
      (Ideal.ofBits .f32 0x3C23D70A#32 * Z (ix2 i d)) = _
  rw [Ideal.ofBits_zero_f32]
  unfold Spec.leaky Spec.slope
  by_cases h : 0 ≤ Z (ix2 i d)
  · rw [if_pos h]; simp [Ideal.cmp, h, Scalar.select]
  · rw [if_neg h]; simp [Ideal.cmp, h, Scalar.select]

/-! ## The result -/

/-- Under finiteness of the inputs (and of the offset), the reference's array is the specification. -/
theorem refOut_eq_G (A : (⟨2, ![8192, 8192]⟩ : Shape).Idx → EReal) (X : (⟨2, ![8192, 128]⟩ : Shape).Idx → EReal)
    (W : (⟨2, ![128, 128]⟩ : Shape).Idx → EReal) (b : (⟨1, ![128]⟩ : Shape).Idx → EReal)
    (hA : Cert.Spec.Finite A) (hX : Cert.Spec.Finite X) (hW : Cert.Spec.Finite W) (hb : Cert.Spec.Finite b)
    (hbig : Cert.Spec.big ≠ ⊤ ∧ Cert.Spec.big ≠ ⊥) :
    refOut A X W b = Cert.Spec.G A X W b := by
  funext y
  obtain ⟨i, d, rfl⟩ : ∃ (i : Fin 8192) (d : Fin 128), y = ix2 i d := ⟨y 0, y 1, eq_ix2 y⟩
  rw [Spec.G_apply]
  unfold refOut Spec.Gent
  rw [rectify_apply, average_apply]
  congr 1
  have hg : ∀ j, logits A (ix2 i j) = ((Spec.lg A i j.val : ℝ) : EReal) := fun j => by
    rw [logits_apply]; exact Spec.logit_eq_lg A hA hbig i j
  obtain ⟨r, hr⟩ := rowMax_real (logits A) i (fun j => Spec.lg A i j.val) hg
  have hterm : ∀ j : Fin 8192, weights (logits A) (ix2 i j) * affine X W b (ix2 j d)
      = Ideal.div (Ideal.exp (((Spec.lg A i j.val : ℝ) : EReal) - (r : EReal)))
          (0 + ∑ j' : Fin 8192, Ideal.exp (((Spec.lg A i j'.val : ℝ) : EReal) - (r : EReal)))
        * ((Spec.vl X W b d j.val : ℝ) : EReal) := fun j => by
    rw [weights_real (logits A) i (fun j => Spec.lg A i j.val) r hg hr j, affine_apply,
      Spec.xw_eq_vl X W b hX hW hb j d]
  rw [Finset.sum_congr rfl fun j _ => hterm j,
    Cert.OnlineSoftmax.ref_row (by decide) r (fun j : Fin 8192 => Spec.lg A i j.val) (fun j : Fin 8192 => Spec.vl X W b d j.val)]
  unfold Spec.num Spec.den
  rw [Cert.OnlineSoftmax.range_eq_univ, Cert.OnlineSoftmax.range_eq_univ]

end Cert.RefValue

end
-- ==== Proof.lean ====
/-
  The kernel computes, for a dense adjacency matrix `A`, the rectified product of the row-softmax of the masked
  logits of `A` with the projected features `X · Wᵀ + b`, in one pass over `A`: per row tile it walks the column
  tiles keeping a running row maximum, a running denominator and running numerators, rescaling them whenever the
  maximum grows, and divides at the end. The reference computes the masked logits, a plain softmax along each row, the
  matrix product and the rectifier. On the extended reals, from finite inputs, both are

      leaky ((∑ j, exp (ℓ j) · v j) / (∑ j, exp (ℓ j)))

  at every entry (`ℓ` the row's masked logits, `v` the column of projected features): the shift by a row maximum
  cancels between numerator and denominator, in the kernel step by step and in the reference at once. Finiteness of
  the inputs is what lets a common factor move across the sums. The three programs' runs terminate with their
  arguments unchanged; the idealization rewrote nothing.
-/
import proofs.«175535_j12962211299361_2_alg».proof.Defs
import proofs.«175535_j12962211299361_2_alg».proof.Proof.Gen.Kernel
import proofs.«175535_j12962211299361_2_alg».proof.Proof.Gen.Kernel.Skeleton
import proofs.«175535_j12962211299361_2_alg».proof.Proof.Gen.Kernel.Launch
import proofs.«175535_j12962211299361_2_alg».proof.Proof.Gen.Kernel.Points
import proofs.«175535_j12962211299361_2_alg».proof.Proof.Gen.Kernel.Frame
import proofs.«175535_j12962211299361_2_alg».proof.Proof.Gen.KernelIdeal
import proofs.«175535_j12962211299361_2_alg».proof.Proof.Gen.KernelIdeal.Skeleton
import proofs.«175535_j12962211299361_2_alg».proof.Proof.Gen.KernelIdeal.Launch
import proofs.«175535_j12962211299361_2_alg».proof.Proof.Gen.KernelIdeal.Points
import proofs.«175535_j12962211299361_2_alg».proof.Proof.Gen.KernelIdeal.Frame
import proofs.«175535_j12962211299361_2_alg».proof.Proof.Gen.KernelIdeal.Value
import proofs.«175535_j12962211299361_2_alg».proof.Proof.Gen.ReferenceIdeal
import proofs.«175535_j12962211299361_2_alg».proof.Proof.Gen.Pre_finite_inputs
import proofs.«175535_j12962211299361_2_alg».proof.Proof.Finiteness
import proofs.«175535_j12962211299361_2_alg».proof.Proof.KernelValue
import proofs.«175535_j12962211299361_2_alg».proof.Proof.RefRun
import proofs.«175535_j12962211299361_2_alg».proof.Proof.RefValue
import Idealize.ShloMosaic.Adequacy
import Idealize.ShloMosaic.Init

noncomputable section

namespace Cert.Proof

open Idealize.ShloMosaic Idealize.SL.Sem

/-- The kernel as printed runs to completion with its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result forgotten, is its frame. -/
theorem frame_referenceIdeal : Cert.frame_ReferenceIdeal := fun m ρ _ =>
  (θ_run Cert.ReferenceIdeal.defs _ _).mono (fun _ h c => (h c).2) (Cert.RefRun.run m ρ)

/-- From finite inputs that agree, the kernel and the reference end with the same result array: the rectified
    softmax-weighted average of the projected features, entry by entry. -/
theorem algebraic : Cert.algebraic_KernelIdeal_ReferenceIdeal := by
  intro m ρ m' ρ' hpre hagree
  have hfin := fun c => Cert.Finiteness.finite_of_pre _ _ _ _ (hpre c)
  refine ⟨_, Cert.KernelValue.run m ρ hfin, ?_⟩
  refine (θ_run Cert.ReferenceIdeal.defs _ _).mono (fun r h c => ⟨(h c).1.trans ?_, (h c).2⟩) (Cert.RefRun.run m' ρ')
  rw [(hagree c).1, (hagree c).2.1, (hagree c).2.2.1, (hagree c).2.2.2]
  exact Cert.RefValue.refOut_eq_G _ _ _ _ (hfin c).1 (hfin c).2.1 (hfin c).2.2.1 (hfin c).2.2.2 Cert.Spec.big_finite

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
